-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg14 : FVec F S64 .f32) (main_arg15 : FVec F S64 .f32) (main_arg16 : FVec F S64x64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S32x32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg10
  let main_cst_18 : FVec F S_ .f32 := constant S_ .f32 0x7F800000#32
  let main_v50 : FVec F S32x64 .f32 := broadcastInDim S32x64 ![] bcast_S_S32x64 main_cst_18
  fn_part3 (F := F) main_arg11 main_arg12 main_arg13 main_arg14 main_arg15 main_arg16 main_arg17 main_v48 main_v49 main_v50

def fn_part1 {F : FTy → Type} [FloatOps F] (main_arg4 : FVec F S32 .f32) (main_arg5 : FVec F S32 .f32) (main_arg6 : FVec F S32 .f32) (main_arg7 : FVec F S32 .f32) (main_arg8 : FVec F S32x32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S1600000 .f32) (main_arg2 : FVec F S128x32 .f32) (main_arg3 : FVec F S32 .f32) (main_arg4 : FVec F S32 .f32) (main_arg5 : FVec F S32 .f32) (main_arg6 : FVec F S32 .f32) (main_arg7 : FVec F S32 .f32) (main_arg8 : FVec F S32x32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S100000x32 : Shape := ⟨2, ![100000, 32]⟩
abbrev S5000x128 : Shape := ⟨2, ![5000, 128]⟩
abbrev S5000x32 : Shape := ⟨2, ![5000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 70
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S2x1600000, .i32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S100000x32, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x32, .f32⟩
  | .hbm, ⟨33, _⟩ => ⟨S1600000x1, .f32⟩
  | .hbm, ⟨34, _⟩ => ⟨S1600000x32, .f32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .hbm, ⟨40, _⟩ => ⟨S1x32, .f32⟩
  | .hbm, ⟨41, _⟩ => ⟨S1x32, .f32⟩
  | .hbm, ⟨42, _⟩ => ⟨S1x32, .f32⟩
  | .hbm, ⟨43, _⟩ => ⟨S1x32, .f32⟩
  | .hbm, ⟨44, _⟩ => ⟨S1x32, .f32⟩
  | .hbm, ⟨45, _⟩ => ⟨S1x32, .f32⟩
  | .hbm, ⟨46, _⟩ => ⟨S100000x32, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x32, .f32⟩
  | .hbm, ⟨56, _⟩ => ⟨S1600000x1, .f32⟩
  | .hbm, ⟨57, _⟩ => ⟨S1600000x32, .f32⟩
  | .hbm, ⟨58, _⟩ => ⟨S1600000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S32x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem10_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S100000x64.size a
  hwx2_10 : ∀ i : grid2.Coords, EltTy.bits .f32 = 32 ∨ (Rect.block (s := S100000x64) S5000x64.size (cc2_transform_10 i) (hinb2_10 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v24) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v44) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S2x1600000, .i32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S1x32, .f32⟩
  | .hbm, ⟨52, _⟩ => ⟨S100000x32, .f32⟩
  | .hbm, ⟨53, _⟩ => ⟨S100000x32, .f32⟩
  | .hbm, ⟨54, _⟩ => ⟨S1x32, .f32⟩
  | .hbm, ⟨55, _⟩ => ⟨S100000x32, .f32⟩
  | .hbm, ⟨56, _⟩ => ⟨S100000x32, .f32⟩
  | .hbm, ⟨57, _⟩ => ⟨S1x32, .f32⟩
  | .hbm, ⟨58, _⟩ => ⟨S100000x32, .f32⟩
  | .hbm, ⟨59, _⟩ => ⟨S100000x32, .f32⟩
  | .hbm, ⟨60, _⟩ => ⟨S_, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S1x1600000, .i32⟩
  | .hbm, ⟨71, _⟩ => ⟨S1600000, .i32⟩
  | .hbm, ⟨72, _⟩ => ⟨S1x1600000, .i32⟩
  | .hbm, ⟨73, _⟩ => ⟨S1600000, .i32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x32, .f32⟩
  | .hbm, ⟨83, _⟩ => ⟨S1600000x1, .f32⟩
  | .hbm, ⟨84, _⟩ => ⟨S1600000x32, .f32⟩
  | .hbm, ⟨85, _⟩ => ⟨S1600000x32, .f32⟩
  | .hbm, ⟨86, _⟩ => ⟨S_, .f32⟩
  | .hbm, ⟨87, _⟩ => ⟨S100000x32, .f32⟩
  | .hbm, ⟨88, _⟩ => ⟨S1600000x1, .i32⟩
  | .hbm, ⟨89, _⟩ => ⟨S100000x32, .f32⟩
  | .hbm, ⟨90, _⟩ => ⟨S100000x32, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call0_cst : Ref sig .tc := ⟨.hbm, 60, rfl⟩
abbrev main_call0_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_cst : Ref sig .tc := ⟨.hbm, 67, rfl⟩
abbrev main_call1_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_2 : Ref sig .tc := ⟨.hbm, 74, rfl⟩
abbrev main_v47 : Ref sig .tc := ⟨.hbm, 75, rfl⟩
abbrev main_v48 : Ref sig .tc := ⟨.hbm, 76, rfl⟩
abbrev main_c_3 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_4 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  The program is six segments: three stretches of host operations, each followed by one pipelined region.  The
  contents of every buffer at each segment boundary are a fold from the launch memory: a stretch applies its
  operations, a region replaces its arrays by what its write-backs leave.  Running the segments from the launch memory
  ends, on every core, with every unscoped buffer at the last boundary's contents; read at the result buffer this
  names the result, and read at an argument it gives back the launch contents.
-/
import proofs.«171872_j42872363549081_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault; in the
    final state the result buffer holds the last boundary's contents at it, and every argument array is as
    launched. -/
theorem run_out : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

/-- The last boundary's contents at the result buffer are what the third region's write-backs leave in its output
    array. -/
theorem out_eq (c : Dev nD) :
    W6 m ρ c (Proc.devRef .tc main_v44) = (dat2 (F := F) (V5 m ρ) c).arrAt 10 cfg2.N :=
  W6_arr m ρ c 10

end Cert.KernelIdeal.Run

end
-- ==== Proof.KernelHost.lean ====
/-
  What each region of the idealized kernel finds in its arrays when it is entered.

  Between the regions the program runs host operations: it splits the edge list into its source and target rows,
  gathers the rows of a node array at the source nodes, scales each gathered row by its edge's weight and adds it into
  the target node's row (the weighted neighbour sum), and reshapes the parameter vectors into one-row arrays.  Here each
  array a region reads is named as a function of the launch memory and of what the earlier regions wrote.
-/
import proofs.«171872_j42872363549081_2_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The edge list's first row as a vector: every edge's source node. -/
def srcRow (ei : IVec S2x1600000 32) : IVec S1600000 32 :=
  shapeCast S1600000 (extractStridedSlice S1x1600000 ![0, 0] ei slices_S2x1600000_S1x1600000_0_0) shapeCasts_S1x1600000_S1600000

/-- The edge list's second row as a vector: every edge's target node. -/
def dstRow (ei : IVec S2x1600000 32) : IVec S1600000 32 :=
  shapeCast S1600000 (extractStridedSlice S1x1600000 ![1, 0] ei slices_S2x1600000_S1x1600000_1_0) shapeCasts_S1x1600000_S1600000

/-- The source nodes as a column of start indices, a negative node counted from the end. -/
def srcCol (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32))) (srcRow ei))

/-- The target nodes as a column of start indices. -/
def dstCol (ei : IVec S2x1600000 32) : IVec S1600000x1 32 :=
  broadcastInDim S1600000x1 ![0] bcast_S1600000_S1600000x1_0 (dstRow ei)

/-- The weighted neighbour sum of a node array `H`: row n is the sum, over the edges whose target is n, of the
    source node's row times the edge's weight. -/
def nsum (H : FVec Ideal S100000x32 .f32) (w : FVec Ideal S1600000 .f32) (ei : IVec S2x1600000 32) : FVec Ideal S100000x32 .f32 :=
  Host.scatterAdd scatter_S100000x32_S1600000x1_S1600000x32_1_0_0_1
    (broadcastInDim S100000x32 ![] bcast_S_S100000x32 (constant (F := Ideal) S_ .f32 0x00000000#32))
    (dstCol ei)
    (mulf (Host.gather gather_S100000x32_S1600000x1_S1600000x32_1_0_n_n_0_1_132 H (srcCol ei))
      (broadcastInDim S1600000x32 ![0, 1] bcast_S1600000x1_S1600000x32_0_1
        (broadcastInDim S1600000x1 ![0] bcast_S1600000_S1600000x1_0 w)))

variable (m : (ℓ : Loc nD τ sig) → Buf (Elt Ideal) ℓ) (ρ : Dev nD → PrngReg) (c : Dev nD)

/-! ## The first stretch: the edge list's rows; the arguments untouched -/

theorem W1_src : (W1 (F := Ideal) m ρ c (Proc.devRef .tc main_v1) : S1600000.Idx → BitVec 32)
    = srcRow (m ((c.tc : Thread nD τ).loc main_arg18)) := by
  show StableHlo.after hostOps0 (W0 (F := Ideal) m ρ c) (Proc.devRef .tc main_v1) = _
  after_results
  rfl

theorem W1_dst : (W1 (F := Ideal) m ρ c (Proc.devRef .tc main_v3) : S1600000.Idx → BitVec 32)
    = dstRow (m ((c.tc : Thread nD τ).loc main_arg18)) := by
  show StableHlo.after hostOps0 (W0 (F := Ideal) m ρ c) (Proc.devRef .tc main_v3) = _
  after_results
  rfl

/-- The first stretch writes no argument. -/
theorem W1_arg (b : Ref sig .tc) (hb : b ≠ main_v0 ∧ b ≠ main_v1 ∧ b ≠ main_v2 ∧ b ≠ main_v3) :
    W1 (F := Ideal) m ρ c (Proc.devRef .tc b) = W0 (F := Ideal) m ρ c (Proc.devRef .tc b) := by
  refine StableHlo.after_of_forall_not_mem (b := Proc.devRef .tc b) _ _ (List.forall_iff_forall_mem.mp ?_)
  simp only [hostOps0, List.Forall, StableHlo.unary_writes, StableHlo.reshape_writes, Finset.mem_singleton]
  exact ⟨StableHlo.devRef_ne_of_ne hb.1, StableHlo.devRef_ne_of_ne hb.2.1, StableHlo.devRef_ne_of_ne hb.2.2.1,
    StableHlo.devRef_ne_of_ne hb.2.2.2⟩

/-- What the first region finds: the node features and the first weight, as launched. -/
theorem entry0_x : (V1 (F := Ideal) m ρ c main_arg0 : S100000x128.Idx → EReal) = m ((c.tc : Thread nD τ).loc main_arg0) :=
  W1_arg m ρ c main_arg0 (by decide)
theorem entry0_w : (V1 (F := Ideal) m ρ c main_arg2 : S128x32.Idx → EReal) = m ((c.tc : Thread nD τ).loc main_arg2) :=
  W1_arg m ρ c main_arg2 (by decide)

/-! ## The second stretch: the neighbour sum of the projected features, and the first layer's parameter rows -/

theorem W2_src : (W2 (F := Ideal) m ρ c (Proc.devRef .tc main_v1) : S1600000.Idx → BitVec 32)
    = srcRow (m ((c.tc : Thread nD τ).loc main_arg18)) :=
  (W2_of_ne m ρ c main_v1 (by decide)).trans (W1_src m ρ c)

theorem W2_dst : (W2 (F := Ideal) m ρ c (Proc.devRef .tc main_v3) : S1600000.Idx → BitVec 32)
    = dstRow (m ((c.tc : Thread nD τ).loc main_arg18)) :=
  (W2_of_ne m ρ c main_v3 (by decide)).trans (W1_dst m ρ c)

/-- The first region writes only its result; with the first stretch, an argument it does not use is as launched. -/
theorem W2_arg (b : Ref sig .tc) (h0 : ∀ w, Pipeline.arrRef spec0 w ≠ b)
    (hb : b ≠ main_v0 ∧ b ≠ main_v1 ∧ b ≠ main_v2 ∧ b ≠ main_v3) :
    W2 (F := Ideal) m ρ c (Proc.devRef .tc b) = W0 (F := Ideal) m ρ c (Proc.devRef .tc b) :=
  (W2_of_ne m ρ c b h0).trans (W1_arg m ρ c b hb)

/-- The projected features the second region finds are what the first region's write-backs leave. -/
theorem entry1_xp : (V3 (F := Ideal) m ρ c main_v4 : S100000x32.Idx → EReal) = (dat0 (F := Ideal) (V1 m ρ) c).arrAt 2 cfg0.N := by
  show StableHlo.after hostOps1 (W2 (F := Ideal) m ρ c) (Proc.devRef .tc main_v4) = _
  after_results
  exact W2_arr m ρ c 2

set_option maxHeartbeats 4000000 in
/-- The second region's second array is the weighted neighbour sum of the projected features. -/
theorem entry1_agg : (V3 (F := Ideal) m ρ c main_v17 : S100000x32.Idx → EReal)
    = nsum ((dat0 (F := Ideal) (V1 m ρ) c).arrAt 2 cfg0.N) (m ((c.tc : Thread nD τ).loc main_arg1)) (m ((c.tc : Thread nD τ).loc main_arg18)) := by
  show StableHlo.after hostOps1 (W2 (F := Ideal) m ρ c) (Proc.devRef .tc main_v17) = _
  after_results
  rw [W2_src, W2_dst, W2_arg m ρ c main_arg1 (by decide) (by decide), show W2 (F := Ideal) m ρ c (Proc.devRef .tc main_v4) = _ from W2_arr m ρ c 2]
  rfl

theorem entry1_ba : (V3 (F := Ideal) m ρ c main_v18 : S1x32.Idx → EReal) = shapeCast S1x32 (m ((c.tc : Thread nD τ).loc main_arg3)) shapeCasts_S32_S1x32 := by
  show StableHlo.after hostOps1 (W2 (F := Ideal) m ρ c) (Proc.devRef .tc main_v18) = _
  after_results
  rw [W2_arg m ρ c main_arg3 (by decide) (by decide)]
  rfl
theorem entry1_g : (V3 (F := Ideal) m ρ c main_v19 : S1x32.Idx → EReal) = shapeCast S1x32 (m ((c.tc : Thread nD τ).loc main_arg4)) shapeCasts_S32_S1x32 := by
  show StableHlo.after hostOps1 (W2 (F := Ideal) m ρ c) (Proc.devRef .tc main_v19) = _
  after_results
  rw [W2_arg m ρ c main_arg4 (by decide) (by decide)]
  rfl
theorem entry1_be : (V3 (F := Ideal) m ρ c main_v20 : S1x32.Idx → EReal) = shapeCast S1x32 (m ((c.tc : Thread nD τ).loc main_arg5)) shapeCasts_S32_S1x32 := by
  show StableHlo.after hostOps1 (W2 (F := Ideal) m ρ c) (Proc.devRef .tc main_v20) = _
  after_results
  rw [W2_arg m ρ c main_arg5 (by decide) (by decide)]
  rfl
theorem entry1_m : (V3 (F := Ideal) m ρ c main_v21 : S1x32.Idx → EReal) = shapeCast S1x32 (m ((c.tc : Thread nD τ).loc main_arg6)) shapeCasts_S32_S1x32 := by
  show StableHlo.after hostOps1 (W2 (F := Ideal) m ρ c) (Proc.devRef .tc main_v21) = _
  after_results
  rw [W2_arg m ρ c main_arg6 (by decide) (by decide)]
  rfl
theorem entry1_v : (V3 (F := Ideal) m ρ c main_v22 : S1x32.Idx → EReal) = shapeCast S1x32 (m ((c.tc : Thread nD τ).loc main_arg7)) shapeCasts_S32_S1x32 := by
  show StableHlo.after hostOps1 (W2 (F := Ideal) m ρ c) (Proc.devRef .tc main_v22) = _
  after_results
  rw [W2_arg m ρ c main_arg7 (by decide) (by decide)]
  rfl
theorem entry1_bb : (V3 (F := Ideal) m ρ c main_v23 : S1x32.Idx → EReal) = shapeCast S1x32 (m ((c.tc : Thread nD τ).loc main_arg9)) shapeCasts_S32_S1x32 := by
  show StableHlo.after hostOps1 (W2 (F := Ideal) m ρ c) (Proc.devRef .tc main_v23) = _
  after_results
  rw [W2_arg m ρ c main_arg9 (by decide) (by decide)]
  rfl
theorem entry1_Wb : (V3 (F := Ideal) m ρ c main_arg8 : S32x32.Idx → EReal) = m ((c.tc : Thread nD τ).loc main_arg8) := by
  show StableHlo.after hostOps1 (W2 (F := Ideal) m ρ c) (Proc.devRef .tc main_arg8) = _
  after_results
  exact W2_arg m ρ c main_arg8 (by decide) (by decide)

/-! ## The third stretch: the neighbour sum of the hidden array, and the second layer's parameter rows -/

theorem W4_src : (W4 (F := Ideal) m ρ c (Proc.devRef .tc main_v1) : S1600000.Idx → BitVec 32)
    = srcRow (m ((c.tc : Thread nD τ).loc main_arg18)) := by
  refine (W4_of_ne m ρ c main_v1 (by decide)).trans ?_
  show StableHlo.after hostOps1 (W2 (F := Ideal) m ρ c) (Proc.devRef .tc main_v1) = _
  after_results
  exact W2_src m ρ c

theorem W4_dst : (W4 (F := Ideal) m ρ c (Proc.devRef .tc main_v3) : S1600000.Idx → BitVec 32)
    = dstRow (m ((c.tc : Thread nD τ).loc main_arg18)) := by
  refine (W4_of_ne m ρ c main_v3 (by decide)).trans ?_
  show StableHlo.after hostOps1 (W2 (F := Ideal) m ρ c) (Proc.devRef .tc main_v3) = _
  after_results
  exact W2_dst m ρ c

/-- Nothing before the third region writes this argument. -/
theorem W4_main_arg1 : (W4 (F := Ideal) m ρ c (Proc.devRef .tc main_arg1) : S1600000.Idx → EReal) = m ((c.tc : Thread nD τ).loc main_arg1) := by
  refine (W4_of_ne m ρ c main_arg1 (by decide)).trans ?_
  show StableHlo.after hostOps1 (W2 (F := Ideal) m ρ c) (Proc.devRef .tc main_arg1) = _
  after_results
  exact W2_arg m ρ c main_arg1 (by decide) (by decide)

/-- Nothing before the third region writes this argument. -/
theorem W4_main_arg11 : (W4 (F := Ideal) m ρ c (Proc.devRef .tc main_arg11) : S64.Idx → EReal) = m ((c.tc : Thread nD τ).loc main_arg11) := by
  refine (W4_of_ne m ρ c main_arg11 (by decide)).trans ?_
  show StableHlo.after hostOps1 (W2 (F := Ideal) m ρ c) (Proc.devRef .tc main_arg11) = _
  after_results
  exact W2_arg m ρ c main_arg11 (by decide) (by decide)

/-- Nothing before the third region writes this argument. -/
theorem W4_main_arg12 : (W4 (F := Ideal) m ρ c (Proc.devRef .tc main_arg12) : S64.Idx → EReal) = m ((c.tc : Thread nD τ).loc main_arg12) := by
  refine (W4_of_ne m ρ c main_arg12 (by decide)).trans ?_
  show StableHlo.after hostOps1 (W2 (F := Ideal) m ρ c) (Proc.devRef .tc main_arg12) = _
  after_results
  exact W2_arg m ρ c main_arg12 (by decide) (by decide)

/-- Nothing before the third region writes this argument. -/
theorem W4_main_arg13 : (W4 (F := Ideal) m ρ c (Proc.devRef .tc main_arg13) : S64.Idx → EReal) = m ((c.tc : Thread nD τ).loc main_arg13) := by
  refine (W4_of_ne m ρ c main_arg13 (by decide)).trans ?_
  show StableHlo.after hostOps1 (W2 (F := Ideal) m ρ c) (Proc.devRef .tc main_arg13) = _
  after_results
  exact W2_arg m ρ c main_arg13 (by decide) (by decide)

/-- Nothing before the third region writes this argument. -/
theorem W4_main_arg14 : (W4 (F := Ideal) m ρ c (Proc.devRef .tc main_arg14) : S64.Idx → EReal) = m ((c.tc : Thread nD τ).loc main_arg14) := by
  refine (W4_of_ne m ρ c main_arg14 (by decide)).trans ?_
  show StableHlo.after hostOps1 (W2 (F := Ideal) m ρ c) (Proc.devRef .tc main_arg14) = _
  after_results
  exact W2_arg m ρ c main_arg14 (by decide) (by decide)

/-- Nothing before the third region writes this argument. -/
theorem W4_main_arg15 : (W4 (F := Ideal) m ρ c (Proc.devRef .tc main_arg15) : S64.Idx → EReal) = m ((c.tc : Thread nD τ).loc main_arg15) := by
  refine (W4_of_ne m ρ c main_arg15 (by decide)).trans ?_
  show StableHlo.after hostOps1 (W2 (F := Ideal) m ρ c) (Proc.devRef .tc main_arg15) = _
  after_results
  exact W2_arg m ρ c main_arg15 (by decide) (by decide)

/-- Nothing before the third region writes this argument. -/
theorem W4_main_arg17 : (W4 (F := Ideal) m ρ c (Proc.devRef .tc main_arg17) : S64.Idx → EReal) = m ((c.tc : Thread nD τ).loc main_arg17) := by
  refine (W4_of_ne m ρ c main_arg17 (by decide)).trans ?_
  show StableHlo.after hostOps1 (W2 (F := Ideal) m ρ c) (Proc.devRef .tc main_arg17) = _
  after_results
  exact W2_arg m ρ c main_arg17 (by decide) (by decide)

/-- Nothing before the third region writes this argument. -/
theorem W4_main_arg10 : (W4 (F := Ideal) m ρ c (Proc.devRef .tc main_arg10) : S32x64.Idx → EReal) = m ((c.tc : Thread nD τ).loc main_arg10) := by
  refine (W4_of_ne m ρ c main_arg10 (by decide)).trans ?_
  show StableHlo.after hostOps1 (W2 (F := Ideal) m ρ c) (Proc.devRef .tc main_arg10) = _
  after_results
  exact W2_arg m ρ c main_arg10 (by decide) (by decide)

/-- Nothing before the third region writes this argument. -/
theorem W4_main_arg16 : (W4 (F := Ideal) m ρ c (Proc.devRef .tc main_arg16) : S64x64.Idx → EReal) = m ((c.tc : Thread nD τ).loc main_arg16) := by
  refine (W4_of_ne m ρ c main_arg16 (by decide)).trans ?_
  show StableHlo.after hostOps1 (W2 (F := Ideal) m ρ c) (Proc.devRef .tc main_arg16) = _
  after_results
  exact W2_arg m ρ c main_arg16 (by decide) (by decide)

/-- The hidden array the third region finds is what the second region's write-backs leave. -/
theorem entry2_feat : (V5 (F := Ideal) m ρ c main_v24 : S100000x32.Idx → EReal) = (dat1 (F := Ideal) (V3 m ρ) c).arrAt 9 cfg1.N := by
  show StableHlo.after hostOps2 (W4 (F := Ideal) m ρ c) (Proc.devRef .tc main_v24) = _
  after_results
  exact W4_arr m ρ c 9

set_option maxHeartbeats 4000000 in
/-- The third region's second array is the weighted neighbour sum of the hidden array. -/
theorem entry2_agg : (V5 (F := Ideal) m ρ c main_v37 : S100000x32.Idx → EReal)
    = nsum ((dat1 (F := Ideal) (V3 m ρ) c).arrAt 9 cfg1.N) (m ((c.tc : Thread nD τ).loc main_arg1)) (m ((c.tc : Thread nD τ).loc main_arg18)) := by
  show StableHlo.after hostOps2 (W4 (F := Ideal) m ρ c) (Proc.devRef .tc main_v37) = _
  after_results
  rw [W4_src, W4_dst, W4_main_arg1, show W4 (F := Ideal) m ρ c (Proc.devRef .tc main_v24) = _ from W4_arr m ρ c 9]
  rfl
theorem entry2_ba : (V5 (F := Ideal) m ρ c main_v38 : S1x64.Idx → EReal) = shapeCast S1x64 (m ((c.tc : Thread nD τ).loc main_arg11)) shapeCasts_S64_S1x64 := by
  show StableHlo.after hostOps2 (W4 (F := Ideal) m ρ c) (Proc.devRef .tc main_v38) = _
  after_results
  rw [W4_main_arg11]
  rfl
theorem entry2_g : (V5 (F := Ideal) m ρ c main_v39 : S1x64.Idx → EReal) = shapeCast S1x64 (m ((c.tc : Thread nD τ).loc main_arg12)) shapeCasts_S64_S1x64 := by
  show StableHlo.after hostOps2 (W4 (F := Ideal) m ρ c) (Proc.devRef .tc main_v39) = _
  after_results
  rw [W4_main_arg12]
  rfl
theorem entry2_be : (V5 (F := Ideal) m ρ c main_v40 : S1x64.Idx → EReal) = shapeCast S1x64 (m ((c.tc : Thread nD τ).loc main_arg13)) shapeCasts_S64_S1x64 := by
  show StableHlo.after hostOps2 (W4 (F := Ideal) m ρ c) (Proc.devRef .tc main_v40) = _
  after_results
  rw [W4_main_arg13]
  rfl
theorem entry2_m : (V5 (F := Ideal) m ρ c main_v41 : S1x64.Idx → EReal) = shapeCast S1x64 (m ((c.tc : Thread nD τ).loc main_arg14)) shapeCasts_S64_S1x64 := by
  show StableHlo.after hostOps2 (W4 (F := Ideal) m ρ c) (Proc.devRef .tc main_v41) = _
  after_results
  rw [W4_main_arg14]
  rfl
theorem entry2_v : (V5 (F := Ideal) m ρ c main_v42 : S1x64.Idx → EReal) = shapeCast S1x64 (m ((c.tc : Thread nD τ).loc main_arg15)) shapeCasts_S64_S1x64 := by
  show StableHlo.after hostOps2 (W4 (F := Ideal) m ρ c) (Proc.devRef .tc main_v42) = _
  after_results
  rw [W4_main_arg15]
  rfl
theorem entry2_bb : (V5 (F := Ideal) m ρ c main_v43 : S1x64.Idx → EReal) = shapeCast S1x64 (m ((c.tc : Thread nD τ).loc main_arg17)) shapeCasts_S64_S1x64 := by
  show StableHlo.after hostOps2 (W4 (F := Ideal) m ρ c) (Proc.devRef .tc main_v43) = _
  after_results
  rw [W4_main_arg17]
  rfl
theorem entry2_Wa : (V5 (F := Ideal) m ρ c main_arg10 : S32x64.Idx → EReal) = m ((c.tc : Thread nD τ).loc main_arg10) := by
  show StableHlo.after hostOps2 (W4 (F := Ideal) m ρ c) (Proc.devRef .tc main_arg10) = _
  after_results
  exact W4_main_arg10 m ρ c
theorem entry2_Wb : (V5 (F := Ideal) m ρ c main_arg16 : S64x64.Idx → EReal) = m ((c.tc : Thread nD τ).loc main_arg16) := by
  show StableHlo.after hostOps2 (W4 (F := Ideal) m ρ c) (Proc.devRef .tc main_arg16) = _
  after_results
  exact W4_main_arg16 m ρ c

end Cert.KernelIdeal.HostValue

end
-- ==== Proof.GinSpec.lean ====
/-
  The graph-isomorphism network's layers as functions of arrays over the extended reals.

  A layer takes node features, adds to every node the weighted sum of its in-neighbours' features, and sends the
  result through a small network: a dense product, an affine normalisation with fixed statistics, a rectifier and a
  second dense product with a bias.  Everything here is stated row by row: entry (p, j) of a layer's result reads only
  row p of the node features, so a block of rows of the result is the layer of the block of rows.

  * `bnRelu`: the normalisation followed by the rectifier, on one number;
  * `mlpAt`: entry j of the small network applied to one row `z` (before the first bias);
  * `denseAt`, `dense`: the dense product [a, k] × [k, n];
  * `post1At`, `post1`: the first layer once its first product has been taken: the row is `xp + aggp`, and the
    result is rectified once more;
  * `layer2At`, `layer2`: the second layer whole: the row is `(feat + agg) · Wa`.
-/
import Idealize.ShloMosaic.PureOps.Ideal
import Idealize.ShloMosaic.Lib.ValueIdx

noncomputable section

open scoped BigOperators

namespace Cert.Gin

open Idealize.ShloMosaic Idealize.ShloMosaic.ValueIdx

/-- The offset added to the variance before the reciprocal square root: the float nearest to 1e-5, exactly. -/
def eps : EReal := Ideal.ofBits .f32 0x3727C5AC#32

/-- Normalise `z` by the mean `m` and variance `v`, scale by `g`, shift by `be`, and rectify. -/
def bnRelu (z m v g be : EReal) : EReal := max ((z - m) * Ideal.rsqrt (v + eps) * g + be) 0

/-- Entry `j` of the small network on the row `z`: the sum over q of bnRelu (z q + ba q) · Wb q j, plus bb j. -/
def mlpAt {k n : ℕ} (z ba g be m v : Fin k → EReal) (Wb : Fin k → Fin n → EReal) (bb : Fin n → EReal) (j : Fin n) : EReal :=
  (∑ q : Fin k, bnRelu (z q + ba q) (m q) (v q) (g q) (be q) * Wb q j) + bb j

/-- The small network reads its row only through the row's entries. -/
theorem mlpAt_congr {k n : ℕ} (z z' ba g be m v : Fin k → EReal) (Wb : Fin k → Fin n → EReal) (bb : Fin n → EReal) (j : Fin n)
    (h : ∀ q, z q = z' q) : mlpAt z ba g be m v Wb bb j = mlpAt z' ba g be m v Wb bb j := by
  rw [show z = z' from funext h]

section Arrays
variable {a r k n : ℕ}

/-- Entry (p, j) of the dense product: the sum over q of x (p, q) · w (q, j). -/
def denseAt (x : FVec Ideal ⟨2, ![a, k]⟩ .f32) (w : FVec Ideal ⟨2, ![k, n]⟩ .f32) (p : Fin a) (j : Fin n) : EReal :=
  ∑ q : Fin k, x (ix2 p q) * w (ix2 q j)

/-- The dense product [a, k] × [k, n]. -/
def dense (x : FVec Ideal ⟨2, ![a, k]⟩ .f32) (w : FVec Ideal ⟨2, ![k, n]⟩ .f32) : FVec Ideal ⟨2, ![a, n]⟩ .f32 :=
  fun i => denseAt x w (i 0) (i 1)

theorem dense_ix2 (x : FVec Ideal ⟨2, ![a, k]⟩ .f32) (w : FVec Ideal ⟨2, ![k, n]⟩ .f32) (p : Fin a) (j : Fin n) :
    dense x w (ix2 p j) = denseAt x w p j := rfl

/-- The one row of a [1, n] array. -/
def rowOf (b : FVec Ideal ⟨2, ![1, n]⟩ .f32) : Fin n → EReal := fun j => b (ix2 (0 : Fin 1) j)

/-- A [n] array as a function of its one coordinate. -/
def vecOf (b : FVec Ideal ⟨1, ![n]⟩ .f32) : Fin n → EReal := fun j => b (ix1 j)

/-- A [k, n] array as a function of its two coordinates. -/
def matOf (w : FVec Ideal ⟨2, ![k, n]⟩ .f32) : Fin k → Fin n → EReal := fun q j => w (ix2 q j)

/-- Entry (p, j) of the first layer after its first product: the small network on the row `xp + aggp`, rectified. -/
def post1At (xp aggp : FVec Ideal ⟨2, ![a, k]⟩ .f32) (ba g be m v : Fin k → EReal) (Wb : FVec Ideal ⟨2, ![k, n]⟩ .f32)
    (bb : Fin n → EReal) (p : Fin a) (j : Fin n) : EReal :=
  max (mlpAt (fun q => xp (ix2 p q) + aggp (ix2 p q)) ba g be m v (matOf Wb) bb j) 0

/-- The first layer after its first product, as an [a, n] array. -/
def post1 (xp aggp : FVec Ideal ⟨2, ![a, k]⟩ .f32) (ba g be m v : Fin k → EReal) (Wb : FVec Ideal ⟨2, ![k, n]⟩ .f32)
    (bb : Fin n → EReal) : FVec Ideal ⟨2, ![a, n]⟩ .f32 :=
  fun i => post1At xp aggp ba g be m v Wb bb (i 0) (i 1)

theorem post1_ix2 (xp aggp : FVec Ideal ⟨2, ![a, k]⟩ .f32) (ba g be m v : Fin k → EReal) (Wb : FVec Ideal ⟨2, ![k, n]⟩ .f32)
    (bb : Fin n → EReal) (p : Fin a) (j : Fin n) :
    post1 xp aggp ba g be m v Wb bb (ix2 p j) = post1At xp aggp ba g be m v Wb bb p j := rfl

/-- Entry (p, j) of the second layer: the small network on the row `(feat + agg) · Wa`. -/
def layer2At (feat agg : FVec Ideal ⟨2, ![a, r]⟩ .f32) (Wa : FVec Ideal ⟨2, ![r, k]⟩ .f32) (ba g be m v : Fin k → EReal)
    (Wb : FVec Ideal ⟨2, ![k, n]⟩ .f32) (bb : Fin n → EReal) (p : Fin a) (j : Fin n) : EReal :=
  mlpAt (fun q => ∑ s : Fin r, (feat (ix2 p s) + agg (ix2 p s)) * Wa (ix2 s q)) ba g be m v (matOf Wb) bb j

/-- The second layer, as an [a, n] array. -/
def layer2 (feat agg : FVec Ideal ⟨2, ![a, r]⟩ .f32) (Wa : FVec Ideal ⟨2, ![r, k]⟩ .f32) (ba g be m v : Fin k → EReal)
    (Wb : FVec Ideal ⟨2, ![k, n]⟩ .f32) (bb : Fin n → EReal) : FVec Ideal ⟨2, ![a, n]⟩ .f32 :=
  fun i => layer2At feat agg Wa ba g be m v Wb bb (i 0) (i 1)

theorem layer2_ix2 (feat agg : FVec Ideal ⟨2, ![a, r]⟩ .f32) (Wa : FVec Ideal ⟨2, ![r, k]⟩ .f32) (ba g be m v : Fin k → EReal)
    (Wb : FVec Ideal ⟨2, ![k, n]⟩ .f32) (bb : Fin n → EReal) (p : Fin a) (j : Fin n) :
    layer2 feat agg Wa ba g be m v Wb bb (ix2 p j) = layer2At feat agg Wa ba g be m v Wb bb p j := rfl

/-- Entry (p, j) of the dense product reads only row p of the left operand. -/
theorem denseAt_congr {a' : ℕ} (X : FVec Ideal ⟨2, ![a, k]⟩ .f32) (x : FVec Ideal ⟨2, ![a', k]⟩ .f32)
    (w : FVec Ideal ⟨2, ![k, n]⟩ .f32) (p : Fin a') (p' : Fin a) (j : Fin n)
    (hx : ∀ q : Fin k, x (ix2 p q) = X (ix2 p' q)) : denseAt x w p j = denseAt X w p' j := by
  unfold denseAt
  exact Finset.sum_congr rfl fun q _ => by rw [hx q]

/-- Entry (p, j) of the first layer's second half reads only row p of `xp` and of `aggp`. -/
theorem post1At_congr {a' : ℕ} (XP AGGP : FVec Ideal ⟨2, ![a, k]⟩ .f32) (xp aggp : FVec Ideal ⟨2, ![a', k]⟩ .f32)
    (ba g be m v : Fin k → EReal) (Wb : FVec Ideal ⟨2, ![k, n]⟩ .f32) (bb : Fin n → EReal) (p : Fin a') (p' : Fin a) (j : Fin n)
    (hx : ∀ q : Fin k, xp (ix2 p q) = XP (ix2 p' q)) (hg : ∀ q : Fin k, aggp (ix2 p q) = AGGP (ix2 p' q)) :
    post1At xp aggp ba g be m v Wb bb p j = post1At XP AGGP ba g be m v Wb bb p' j := by
  unfold post1At
  rw [mlpAt_congr _ (fun q => XP (ix2 p' q) + AGGP (ix2 p' q)) _ _ _ _ _ _ _ _ (fun q => by rw [hx q, hg q])]

/-- Entry (p, j) of the second layer reads only row p of `feat` and of `agg`. -/
theorem layer2At_congr {a' : ℕ} (FEAT AGG : FVec Ideal ⟨2, ![a, r]⟩ .f32) (feat agg : FVec Ideal ⟨2, ![a', r]⟩ .f32)
    (Wa : FVec Ideal ⟨2, ![r, k]⟩ .f32) (ba g be m v : Fin k → EReal) (Wb : FVec Ideal ⟨2, ![k, n]⟩ .f32) (bb : Fin n → EReal)
    (p : Fin a') (p' : Fin a) (j : Fin n)
    (hx : ∀ s : Fin r, feat (ix2 p s) = FEAT (ix2 p' s)) (hg : ∀ s : Fin r, agg (ix2 p s) = AGG (ix2 p' s)) :
    layer2At feat agg Wa ba g be m v Wb bb p j = layer2At FEAT AGG Wa ba g be m v Wb bb p' j := by
  unfold layer2At
  refine mlpAt_congr _ _ _ _ _ _ _ _ _ _ fun q => Finset.sum_congr rfl fun s _ => by rw [hx s, hg s]

end Arrays

end Cert.Gin

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.RegionsProjPost.lean ====
/-
  What the first two pallas_call regions leave in their result arrays, each as one whole-array function of the arrays
  the region finds on entry, over the extended reals.

  Region 0 multiplies the node features [100000, 128] by a weight [128, 32], twenty blocks of 5000 rows at a time:
  the result is the dense product of the two arrays. Region 1 takes that product and the aggregated neighbours'
  product, again 5000 rows at a time, adds them, and sends each row through the small network (bias, affine
  normalisation with fixed statistics, rectifier, a 32 × 32 product, bias) and one more rectifier.

  Each proof has the same three steps: the body's arithmetic read at one index of a block (an entry (p, j) of the
  result depends only on row p of the row-tiled operands); what one grid point writes back is therefore the block of
  the whole-array function; and the twenty blocks cover the array (row r is in block r / 5000).
-/
import proofs.«171872_j42872363549081_2_alg».proof.Proof.Gen.KernelIdeal.Frame
import proofs.«171872_j42872363549081_2_alg».proof.Proof.GinSpec
import proofs.«171872_j42872363549081_2_alg».proof.Proof.LibAffine
import Idealize.ShloMosaic.Lib.Pipeline.Value
import Idealize.ShloMosaic.Lib.ValueLayout
import Idealize.ShloMosaic.Lib.ValueIdx

noncomputable section

namespace Cert.KernelIdeal.RegionValue

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as a constant function. -/
theorem zeroOffsets01 : (![0, 0] : Fin 2 → Nat) = fun _ => 0 := funext fun a => by fin_cases a <;> rfl

/-! ## Region 0: the dense product -/

/-- The product's dimension record contracts the left operand's columns against the right operand's rows. -/
theorem dot0_lhs0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem dot0_lhs1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem dot0_rhs0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem dot0_rhs1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The body's arithmetic at entry (p, j) of a block: the sum over q of x (p, q) · w (q, j) (the two format
    changes are the identity on extended reals, and the accumulator starts at zero). -/
theorem pay0_ix2 (x0 : Vec Ideal S5000x128 .f32) (x1 : Vec Ideal S128x32 .f32) (p : Fin 5000) (j : Fin 32) :
    Gen.k0_pay1 (F := Ideal) x0 x1 (ix2 p j) = Cert.Gin.denseAt x0 x1 p j := by
  unfold Gen.k0_pay1
  exact (Cert.LibAffine.coreDot_ix2 dot_S5000x128_S128x32_S5000x32_1_0_0_1_n_n rfl rfl dot0_lhs0 dot0_lhs1 dot0_rhs0 dot0_rhs1
    none _ _ p j).trans rfl

/-- What the body leaves in the result's block: the dense product of the two input blocks. -/
theorem out0_eq (x0 : Vec Ideal S5000x128 .f32) (x1 : Vec Ideal S128x32 .f32) :
    Gen.out0_2 (F := Ideal) x0 x1 = Cert.Gin.dense x0 x1 := by
  unfold Gen.out0_2
  rw [View.canon_unit_zero zeroOffsets01]
  simp only [View.ld_unit_zero (S := S5000x128) zeroOffsets01, View.ld_unit_zero (S := S128x32) zeroOffsets01]
  funext i
  obtain ⟨p, j, rfl⟩ : ∃ (p : Fin 5000) (j : Fin 32), i = ix2 p j := ⟨i 0, i 1, eq_ix2 i⟩
  exact pay0_ix2 x0 x1 p j

/-- The printed index maps over the grid: the two row-tiled windows sit at block (t, 0), the weight at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 5000·t + p of the features. -/
theorem blk0_0_apply (c : Dev nD) (t : Fin cfg0.N) (p : Fin 5000) (q : Fin 128) (r : Fin 100000)
    (hr : r.val = 5000 * t.val + p.val) :
    (Gen.iblk0 V c 0 t : Vec Ideal S5000x128 .f32) (ix2 p q) = (V c main_arg0 : S100000x128.Idx → EReal) (ix2 r q) := by
  obtain ⟨e0, e1, -⟩ := idx0 t
  unfold Gen.iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * q.val = q.val; rw [e1]; omega

/-- The weight's block at every point is the whole weight. -/
theorem blk0_1_eq (c : Dev nD) (t : Fin cfg0.N) :
    (Gen.iblk0 V c 1 t : Vec Ideal S128x32 .f32) = (V c main_arg2 : S128x32.Idx → EReal) := by
  obtain ⟨-, -, e0, e1, -⟩ := idx0 t
  funext j
  unfold Gen.iblk0
  rw [View.read_apply]
  show V c main_arg2 _ = V c main_arg2 _
  congr 1
  funext a
  apply Fin.ext
  match a with
  | ⟨0, _⟩ => show win0_1.index t 0 * 128 + 1 * (j 0).val = (j 0).val; rw [e0]; omega
  | ⟨1, _⟩ => show win0_1.index t 1 * 32 + 1 * (j 1).val = (j 1).val; rw [e1]; omega

/-- A block of 5000 rows of the dense product is the dense product of the block of rows: entry (p, j) reads only
    row p of the left operand. -/
theorem dense_rows (X : FVec Ideal ⟨2, ![100000, 128]⟩ .f32) (W : FVec Ideal ⟨2, ![128, 32]⟩ .f32)
    (x : FVec Ideal ⟨2, ![5000, 128]⟩ .f32) (tv : ℕ)
    (hx : ∀ (p : Fin 5000) (q : Fin 128) (r : Fin 100000), r.val = 5000 * tv + p.val → x (ix2 p q) = X (ix2 r q))
    (y : S5000x32.Idx) (i : S100000x32.Idx) (hi0 : (i 0).val = 5000 * tv + (y 0).val) (hi1 : (i 1).val = (y 1).val) :
    Cert.Gin.dense x W y = Cert.Gin.dense X W i := by
  obtain ⟨p, j, rfl⟩ : ∃ (p : Fin 5000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j' = j := Fin.ext hi1
  rw [Cert.Gin.dense_ix2, Cert.Gin.dense_ix2]
  exact Cert.Gin.denseAt_congr X x W p r j' (fun q => hx p q r hi0)

/-- What grid point t writes back is block t of the dense product of the features and the weight. -/
theorem flushed0_eq (c : Dev nD) (t : Fin cfg0.N) :
    (Gen.dat0 (F := Ideal) V c).flushed 2 t
      = ((cfg0.win 2).blk t).view.read (Elt Ideal)
          (Cert.Gin.dense (V c main_arg0 : S100000x128.Idx → EReal) (V c main_arg2 : S128x32.Idx → EReal)) := by
  show (cfg0.win 2).cut (grid0.coords t) ((Gen.dat0 (F := Ideal) V c).after 2 t) = _
  rw [Gen.after0_2, out0_eq (Gen.iblk0 V c 0 t) (Gen.iblk0 V c 1 t), blk0_1_eq V c t]
  obtain ⟨-, -, -, -, e0, e1⟩ := idx0 t
  funext y
  rw [View.read_apply]
  refine dense_rows (V c main_arg0) (V c main_arg2) (Gen.iblk0 V c 0 t) t.val
    (fun p q r hr => blk0_0_apply V c t p q r hr) y _ ?_ ?_
  · show win0_2.index t 0 * 5000 + 1 * (y 0).val = 5000 * t.val + (y 0).val; rw [e0]; omega
  · show win0_2.index t 1 * 32 + 1 * (y 1).val = (y 1).val; rw [e1]; omega

/-- Every row of the result is in some point's block: row r is in block r / 5000. -/
theorem cover0 (i : S100000x32.Idx) :
    ∃ t : Fin cfg0.N, (cfg0.win 2).flush t = true ∧ i ∈ ((cfg0.win 2).blk t).view.set := by
  have h0 : (i 0).val < 100000 := (i 0).isLt
  have h1 : (i 1).val < 32 := (i 1).isLt
  have hN : grid0.N = 20 := Gen.N_0
  obtain ⟨t, ht⟩ : ∃ t : Fin cfg0.N, t.val = (i 0).val / 5000 :=
    ⟨⟨(i 0).val / 5000, by show _ < grid0.N; rw [hN]; omega⟩, rfl⟩
  obtain ⟨-, -, -, -, e0, e1⟩ := idx0 t
  refine ⟨t, Gen.flush0_2 t, ?_⟩
  show i ∈ ((View.whole main_v4).slice (win0_2.rect t)).set
  rw [View.set_slice_whole, Rect.mem_set_unit]
  intro a
  match a with
  | ⟨0, _⟩ => show win0_2.index t 0 * 5000 ≤ (i 0).val ∧ (i 0).val < win0_2.index t 0 * 5000 + 5000; rw [e0, ht]; omega
  | ⟨1, _⟩ => show win0_2.index t 1 * 32 ≤ (i 1).val ∧ (i 1).val < win0_2.index t 1 * 32 + 32; rw [e1]; omega

/-- Region 0 leaves the dense product of the features and the weight in its result array. -/
theorem region0_array (c : Dev nD) :
    (Gen.dat0 (F := Ideal) V c).arrAt 2 cfg0.N = Cert.Gin.dense (V c main_arg0) (V c main_arg2) :=
  (Gen.dat0 (F := Ideal) V c).arrAt_eq_of_cover 2
    (Cert.Gin.dense (V c main_arg0 : S100000x128.Idx → EReal) (V c main_arg2 : S128x32.Idx → EReal))
    (fun t _ => flushed0_eq V c t) cover0

/-! ## Region 1: the rest of the first layer -/

/-- The second product's dimension record contracts the left operand's columns against the right operand's rows. -/
theorem dot1_lhs0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem dot1_lhs1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem dot1_rhs0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem dot1_rhs1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The hidden activation at (p, q): the two products' row plus the first bias, normalised by the fixed mean and
    variance, scaled, shifted and rectified. Every [1, 32] operand is read at its one row. -/
theorem hidden_ix2 (x0 x1 : FVec Ideal S5000x32 .f32) (ba m v g be : FVec Ideal S1x32 .f32)
    (sc : S5000x32.ShapeCasts S5000x32) (sr : S1x32.ShapeCasts S1x32) (bc : S1x32.Broadcasts S5000x32)
    (p : Fin 5000) (q : Fin 32) :
    maximumf (addf (mulf (mulf (subf (addf (addf (shapeCast S5000x32 x0 sc) (shapeCast S5000x32 x1 sc))
          (broadcastTo S5000x32 (shapeCast S1x32 ba sr) bc)) (broadcastTo S5000x32 (shapeCast S1x32 m sr) bc))
        (broadcastTo S5000x32 (rsqrt (addf (shapeCast S1x32 v sr) (broadcast S1x32 (Scalar.ofBits (F := Ideal) .f32 0x3727C5AC#32)))) bc))
        (broadcastTo S5000x32 (shapeCast S1x32 g sr) bc)) (broadcastTo S5000x32 (shapeCast S1x32 be sr) bc))
      (broadcast S5000x32 (Scalar.ofBits (F := Ideal) .f32 0x00000000#32)) (ix2 p q)
      = Cert.Gin.bnRelu ((x0 (ix2 p q) + x1 (ix2 p q)) + ba (ix2 (0 : Fin 1) q)) (m (ix2 (0 : Fin 1) q))
          (v (ix2 (0 : Fin 1) q)) (g (ix2 (0 : Fin 1) q)) (be (ix2 (0 : Fin 1) q)) := by
  rw [maximumf_apply, addf_apply, mulf_apply, mulf_apply, subf_apply, addf_apply, addf_apply,
    broadcastTo_1b_ab_apply, broadcastTo_1b_ab_apply, broadcastTo_1b_ab_apply, broadcastTo_1b_ab_apply,
    broadcastTo_1b_ab_apply, broadcast_apply]
  simp only [shapeCast_self, Ideal.ofBits_def, Ideal.ofBits_zero_f32]
  rfl

/-- A rectified dense layer at (p, j): the sum over q of h (p, q) · w (q, j), plus the bias row's entry j, rectified
    (the two format changes are the identity on extended reals, and the accumulator starts at zero). -/
theorem tail_ix2 (h : FVec Ideal S5000x32 .f32) (w : FVec Ideal S32x32 .f32) (b : FVec Ideal S1x32 .f32)
    (hb : FTy.bits .bf16 < FTy.bits .f32) (sr : S1x32.ShapeCasts S1x32) (bc : S1x32.Broadcasts S5000x32)
    (p : Fin 5000) (j : Fin 32) :
    maximumf (addf (matmul dot_S5000x32_S32x32_S5000x32_1_0_0_1_n_n none (truncf .bf16 h hb) (truncf .bf16 w hb)
          (constant (F := Ideal) S5000x32 .f32 0x00000000#32)) (broadcastTo S5000x32 (shapeCast S1x32 b sr) bc))
      (broadcast S5000x32 (Scalar.ofBits (F := Ideal) .f32 0x00000000#32)) (ix2 p j)
      = max ((∑ q : Fin 32, h (ix2 p q) * w (ix2 q j)) + b (ix2 (0 : Fin 1) j)) 0 := by
  rw [maximumf_apply, addf_apply, broadcastTo_1b_ab_apply, broadcast_apply, Ideal.ofBits_def, Ideal.ofBits_zero_f32,
    shapeCast_self]
  refine congrArg (fun s : EReal => max (s + b (ix2 (0 : Fin 1) j)) 0) ?_
  exact (Cert.LibAffine.coreDot_ix2 dot_S5000x32_S32x32_S5000x32_1_0_0_1_n_n rfl rfl dot1_lhs0 dot1_lhs1 dot1_rhs0 dot1_rhs1
    none _ _ p j).trans rfl

/-- The body's arithmetic at entry (p, j) of a block: the small network on row p of the two products added, rectified. -/
theorem pay1_ix2 (x0 x1 : Vec Ideal S5000x32 .f32) (x2 x5 x6 x3 x4 : Vec Ideal S1x32 .f32) (x7 : Vec Ideal S32x32 .f32)
    (x8 : Vec Ideal S1x32 .f32) (p : Fin 5000) (j : Fin 32) :
    Gen.k1_pay1 (F := Ideal) (Gen.k1_pay2 x0 x1 x2 x5 x6 x3 x4 x7 x8) (ix2 p j)
      = Cert.Gin.post1At x0 x1 (Cert.Gin.rowOf x2) (Cert.Gin.rowOf x3) (Cert.Gin.rowOf x4) (Cert.Gin.rowOf x5)
          (Cert.Gin.rowOf x6) x7 (Cert.Gin.rowOf x8) p j := by
  unfold Gen.k1_pay1 Gen.k1_pay2
  refine (tail_ix2 _ x7 x8 _ _ _ p j).trans ?_
  unfold Cert.Gin.post1At Cert.Gin.mlpAt
  refine congrArg (fun s : EReal => max (s + x8 (ix2 (0 : Fin 1) j)) 0) ?_
  exact Finset.sum_congr rfl fun q _ => congrArg (· * x7 (ix2 q j)) (hidden_ix2 x0 x1 x2 x5 x6 x3 x4 _ _ _ p q)

/-- What the body leaves in the result's block: the layer of the input blocks. -/
theorem out1_eq (x0 x1 : Vec Ideal S5000x32 .f32) (x2 x3 x4 x5 x6 : Vec Ideal S1x32 .f32) (x7 : Vec Ideal S32x32 .f32)
    (x8 : Vec Ideal S1x32 .f32) :
    Gen.out1_9 (F := Ideal) x0 x1 x2 x3 x4 x5 x6 x7 x8
      = Cert.Gin.post1 x0 x1 (Cert.Gin.rowOf x2) (Cert.Gin.rowOf x3) (Cert.Gin.rowOf x4) (Cert.Gin.rowOf x5)
          (Cert.Gin.rowOf x6) x7 (Cert.Gin.rowOf x8) := by
  unfold Gen.out1_9
  rw [View.canon_unit_zero zeroOffsets01]
  simp only [View.ld_unit_zero (S := S5000x32) zeroOffsets01, View.ld_unit_zero (S := S1x32) zeroOffsets01, View.ld_unit_zero (S := S32x32) zeroOffsets01]
  funext i
  obtain ⟨p, j, rfl⟩ : ∃ (p : Fin 5000) (j : Fin 32), i = ix2 p j := ⟨i 0, i 1, eq_ix2 i⟩
  exact pay1_ix2 x0 x1 x2 x5 x6 x3 x4 x7 x8 p j

/-- The row-tiled windows (the two products and the result) sit at block (t, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-- Row p of window 0's block (the first product) at point t is row 5000·t + p of the array. -/
theorem blk1_0_apply (c : Dev nD) (t : Fin cfg1.N) (p : Fin 5000) (q : Fin 32) (r : Fin 100000)
    (hr : r.val = 5000 * t.val + p.val) :
    (Gen.iblk1 V c 0 t : Vec Ideal S5000x32 .f32) (ix2 p q) = (V c main_v4 : S100000x32.Idx → EReal) (ix2 r q) := by
  obtain ⟨e0, e1⟩ := idx1_0 t
  unfold Gen.iblk1
  rw [View.read_apply]
  show V c main_v4 _ = V c main_v4 _
  congr 1
  funext a
  apply Fin.ext
  match a with
  | ⟨0, _⟩ => show win1_0.index t 0 * 5000 + 1 * p.val = r.val; rw [e0, hr]; omega
  | ⟨1, _⟩ => show win1_0.index t 1 * 32 + 1 * q.val = q.val; rw [e1]; omega

/-- Row p of window 1's block (the aggregated product) at point t is row 5000·t + p of the array. -/
theorem blk1_1_apply (c : Dev nD) (t : Fin cfg1.N) (p : Fin 5000) (q : Fin 32) (r : Fin 100000)
    (hr : r.val = 5000 * t.val + p.val) :
    (Gen.iblk1 V c 1 t : Vec Ideal S5000x32 .f32) (ix2 p q) = (V c main_v17 : S100000x32.Idx → EReal) (ix2 r q) := by
  obtain ⟨e0, e1⟩ := idx1_1 t
  unfold Gen.iblk1
  rw [View.read_apply]
  show V c main_v17 _ = V c main_v17 _
  congr 1
  funext a
  apply Fin.ext
  match a with
  | ⟨0, _⟩ => show win1_1.index t 0 * 5000 + 1 * p.val = r.val; rw [e0, hr]; omega
  | ⟨1, _⟩ => show win1_1.index t 1 * 32 + 1 * q.val = q.val; rw [e1]; omega

/-- Window 2 (the first bias) sits at block (0, 0) at every point, so its block is the whole array. -/
theorem idx1_2 : ∀ t : Fin cfg1.N, win1_2.index t (0 : Fin 2) = 0 ∧ win1_2.index t (1 : Fin 2) = 0 :=
  (by decide +kernel : ∀ t : Fin grid1.N, _)
theorem blk1_2_eq (c : Dev nD) (t : Fin cfg1.N) :
    (Gen.iblk1 V c 2 t : Vec Ideal S1x32 .f32) = (V c main_v18 : S1x32.Idx → EReal) := by
  obtain ⟨e0, e1⟩ := idx1_2 t
  funext j
  unfold Gen.iblk1
  rw [View.read_apply]
  show V c main_v18 _ = V c main_v18 _
  congr 1
  funext a
  apply Fin.ext
  match a with
  | ⟨0, _⟩ => show win1_2.index t 0 * 1 + 1 * (j 0).val = (j 0).val; rw [e0]; omega
  | ⟨1, _⟩ => show win1_2.index t 1 * 32 + 1 * (j 1).val = (j 1).val; rw [e1]; omega

/-- Window 3 (the scale) sits at block (0, 0) at every point, so its block is the whole array. -/
theorem idx1_3 : ∀ t : Fin cfg1.N, win1_3.index t (0 : Fin 2) = 0 ∧ win1_3.index t (1 : Fin 2) = 0 :=
  (by decide +kernel : ∀ t : Fin grid1.N, _)
theorem blk1_3_eq (c : Dev nD) (t : Fin cfg1.N) :
    (Gen.iblk1 V c 3 t : Vec Ideal S1x32 .f32) = (V c main_v19 : S1x32.Idx → EReal) := by
  obtain ⟨e0, e1⟩ := idx1_3 t
  funext j
  unfold Gen.iblk1
  rw [View.read_apply]
  show V c main_v19 _ = V c main_v19 _
  congr 1
  funext a
  apply Fin.ext
  match a with
  | ⟨0, _⟩ => show win1_3.index t 0 * 1 + 1 * (j 0).val = (j 0).val; rw [e0]; omega
  | ⟨1, _⟩ => show win1_3.index t 1 * 32 + 1 * (j 1).val = (j 1).val; rw [e1]; omega

/-- Window 4 (the shift) sits at block (0, 0) at every point, so its block is the whole array. -/
theorem idx1_4 : ∀ t : Fin cfg1.N, win1_4.index t (0 : Fin 2) = 0 ∧ win1_4.index t (1 : Fin 2) = 0 :=
  (by decide +kernel : ∀ t : Fin grid1.N, _)
theorem blk1_4_eq (c : Dev nD) (t : Fin cfg1.N) :
    (Gen.iblk1 V c 4 t : Vec Ideal S1x32 .f32) = (V c main_v20 : S1x32.Idx → EReal) := by
  obtain ⟨e0, e1⟩ := idx1_4 t
  funext j
  unfold Gen.iblk1
  rw [View.read_apply]
  show V c main_v20 _ = V c main_v20 _
  congr 1
  funext a
  apply Fin.ext
  match a with
  | ⟨0, _⟩ => show win1_4.index t 0 * 1 + 1 * (j 0).val = (j 0).val; rw [e0]; omega
  | ⟨1, _⟩ => show win1_4.index t 1 * 32 + 1 * (j 1).val = (j 1).val; rw [e1]; omega

/-- Window 5 (the mean) sits at block (0, 0) at every point, so its block is the whole array. -/
theorem idx1_5 : ∀ t : Fin cfg1.N, win1_5.index t (0 : Fin 2) = 0 ∧ win1_5.index t (1 : Fin 2) = 0 :=
  (by decide +kernel : ∀ t : Fin grid1.N, _)
theorem blk1_5_eq (c : Dev nD) (t : Fin cfg1.N) :
    (Gen.iblk1 V c 5 t : Vec Ideal S1x32 .f32) = (V c main_v21 : S1x32.Idx → EReal) := by
  obtain ⟨e0, e1⟩ := idx1_5 t
  funext j
  unfold Gen.iblk1
  rw [View.read_apply]
  show V c main_v21 _ = V c main_v21 _
  congr 1
  funext a
  apply Fin.ext
  match a with
  | ⟨0, _⟩ => show win1_5.index t 0 * 1 + 1 * (j 0).val = (j 0).val; rw [e0]; omega
  | ⟨1, _⟩ => show win1_5.index t 1 * 32 + 1 * (j 1).val = (j 1).val; rw [e1]; omega

/-- Window 6 (the variance) sits at block (0, 0) at every point, so its block is the whole array. -/
theorem idx1_6 : ∀ t : Fin cfg1.N, win1_6.index t (0 : Fin 2) = 0 ∧ win1_6.index t (1 : Fin 2) = 0 :=
  (by decide +kernel : ∀ t : Fin grid1.N, _)
theorem blk1_6_eq (c : Dev nD) (t : Fin cfg1.N) :
    (Gen.iblk1 V c 6 t : Vec Ideal S1x32 .f32) = (V c main_v22 : S1x32.Idx → EReal) := by
  obtain ⟨e0, e1⟩ := idx1_6 t
  funext j
  unfold Gen.iblk1
  rw [View.read_apply]
  show V c main_v22 _ = V c main_v22 _
  congr 1
  funext a
  apply Fin.ext
  match a with
  | ⟨0, _⟩ => show win1_6.index t 0 * 1 + 1 * (j 0).val = (j 0).val; rw [e0]; omega
  | ⟨1, _⟩ => show win1_6.index t 1 * 32 + 1 * (j 1).val = (j 1).val; rw [e1]; omega

/-- Window 7 (the second weight) sits at block (0, 0) at every point, so its block is the whole array. -/
theorem idx1_7 : ∀ t : Fin cfg1.N, win1_7.index t (0 : Fin 2) = 0 ∧ win1_7.index t (1 : Fin 2) = 0 :=
  (by decide +kernel : ∀ t : Fin grid1.N, _)
theorem blk1_7_eq (c : Dev nD) (t : Fin cfg1.N) :
    (Gen.iblk1 V c 7 t : Vec Ideal S32x32 .f32) = (V c main_arg8 : S32x32.Idx → EReal) := by
  obtain ⟨e0, e1⟩ := idx1_7 t
  funext j
  unfold Gen.iblk1
  rw [View.read_apply]
  show V c main_arg8 _ = V c main_arg8 _
  congr 1
  funext a
  apply Fin.ext
  match a with
  | ⟨0, _⟩ => show win1_7.index t 0 * 32 + 1 * (j 0).val = (j 0).val; rw [e0]; omega
  | ⟨1, _⟩ => show win1_7.index t 1 * 32 + 1 * (j 1).val = (j 1).val; rw [e1]; omega

/-- Window 8 (the second bias) sits at block (0, 0) at every point, so its block is the whole array. -/
theorem idx1_8 : ∀ t : Fin cfg1.N, win1_8.index t (0 : Fin 2) = 0 ∧ win1_8.index t (1 : Fin 2) = 0 :=
  (by decide +kernel : ∀ t : Fin grid1.N, _)
theorem blk1_8_eq (c : Dev nD) (t : Fin cfg1.N) :
    (Gen.iblk1 V c 8 t : Vec Ideal S1x32 .f32) = (V c main_v23 : S1x32.Idx → EReal) := by
  obtain ⟨e0, e1⟩ := idx1_8 t
  funext j
  unfold Gen.iblk1
  rw [View.read_apply]
  show V c main_v23 _ = V c main_v23 _
  congr 1
  funext a
  apply Fin.ext
  match a with
  | ⟨0, _⟩ => show win1_8.index t 0 * 1 + 1 * (j 0).val = (j 0).val; rw [e0]; omega
  | ⟨1, _⟩ => show win1_8.index t 1 * 32 + 1 * (j 1).val = (j 1).val; rw [e1]; omega

/-- A block of 5000 rows of the layer is the layer of the blocks of rows: entry (p, j) reads only row p of the two
    products. -/
theorem post1_rows (XP AGGP : FVec Ideal ⟨2, ![100000, 32]⟩ .f32) (xp aggp : FVec Ideal ⟨2, ![5000, 32]⟩ .f32)
    (ba g be m v : Fin 32 → EReal) (Wb : FVec Ideal ⟨2, ![32, 32]⟩ .f32) (bb : Fin 32 → EReal) (tv : ℕ)
    (hx : ∀ (p : Fin 5000) (q : Fin 32) (r : Fin 100000), r.val = 5000 * tv + p.val → xp (ix2 p q) = XP (ix2 r q))
    (hg : ∀ (p : Fin 5000) (q : Fin 32) (r : Fin 100000), r.val = 5000 * tv + p.val → aggp (ix2 p q) = AGGP (ix2 r q))
    (y : S5000x32.Idx) (i : S100000x32.Idx) (hi0 : (i 0).val = 5000 * tv + (y 0).val) (hi1 : (i 1).val = (y 1).val) :
    Cert.Gin.post1 xp aggp ba g be m v Wb bb y = Cert.Gin.post1 XP AGGP ba g be m v Wb bb i := by
  obtain ⟨p, j, rfl⟩ : ∃ (p : Fin 5000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j' = j := Fin.ext hi1
  rw [Cert.Gin.post1_ix2, Cert.Gin.post1_ix2]
  exact Cert.Gin.post1At_congr XP AGGP xp aggp ba g be m v Wb bb p r j' (fun q => hx p q r hi0) (fun q => hg p q r hi0)

/-- What grid point t writes back is block t of the layer of the arrays the region finds. -/
theorem flushed1_eq (c : Dev nD) (t : Fin cfg1.N) :
    (Gen.dat1 (F := Ideal) V c).flushed 9 t
      = ((cfg1.win 9).blk t).view.read (Elt Ideal)
          (Cert.Gin.post1 (V c main_v4 : S100000x32.Idx → EReal) (V c main_v17 : S100000x32.Idx → EReal)
            (Cert.Gin.rowOf (V c main_v18 : S1x32.Idx → EReal)) (Cert.Gin.rowOf (V c main_v19 : S1x32.Idx → EReal))
            (Cert.Gin.rowOf (V c main_v20 : S1x32.Idx → EReal)) (Cert.Gin.rowOf (V c main_v21 : S1x32.Idx → EReal))
            (Cert.Gin.rowOf (V c main_v22 : S1x32.Idx → EReal)) (V c main_arg8 : S32x32.Idx → EReal)
            (Cert.Gin.rowOf (V c main_v23 : S1x32.Idx → EReal))) := by
  show (cfg1.win 9).cut (grid1.coords t) ((Gen.dat1 (F := Ideal) V c).after 9 t) = _
  rw [Gen.after1_9, out1_eq (Gen.iblk1 V c 0 t) (Gen.iblk1 V c 1 t) (Gen.iblk1 V c 2 t) (Gen.iblk1 V c 3 t)
    (Gen.iblk1 V c 4 t) (Gen.iblk1 V c 5 t) (Gen.iblk1 V c 6 t) (Gen.iblk1 V c 7 t) (Gen.iblk1 V c 8 t),
    blk1_2_eq V c t, blk1_3_eq V c t, blk1_4_eq V c t, blk1_5_eq V c t, blk1_6_eq V c t, blk1_7_eq V c t, blk1_8_eq V c t]
  obtain ⟨e0, e1⟩ := idx1_9 t
  funext y
  rw [View.read_apply]
  refine post1_rows (V c main_v4) (V c main_v17) (Gen.iblk1 V c 0 t) (Gen.iblk1 V c 1 t) _ _ _ _ _ (V c main_arg8) _ t.val
    (fun p q r hr => blk1_0_apply V c t p q r hr) (fun p q r hr => blk1_1_apply V c t p q r hr) y _ ?_ ?_
  · show win1_9.index t 0 * 5000 + 1 * (y 0).val = 5000 * t.val + (y 0).val; rw [e0]; omega
  · show win1_9.index t 1 * 32 + 1 * (y 1).val = (y 1).val; rw [e1]; omega

/-- Every row of the result is in some point's block: row r is in block r / 5000. -/
theorem cover1 (i : S100000x32.Idx) :
    ∃ t : Fin cfg1.N, (cfg1.win 9).flush t = true ∧ i ∈ ((cfg1.win 9).blk t).view.set := by
  have h0 : (i 0).val < 100000 := (i 0).isLt
  have h1 : (i 1).val < 32 := (i 1).isLt
  have hN : grid1.N = 20 := Gen.N_1
  obtain ⟨t, ht⟩ : ∃ t : Fin cfg1.N, t.val = (i 0).val / 5000 :=
    ⟨⟨(i 0).val / 5000, by show _ < grid1.N; rw [hN]; omega⟩, rfl⟩
  obtain ⟨e0, e1⟩ := idx1_9 t
  refine ⟨t, Gen.flush1_9 t, ?_⟩
  show i ∈ ((View.whole main_v24).slice (win1_9.rect t)).set
  rw [View.set_slice_whole, Rect.mem_set_unit]
  intro a
  match a with
  | ⟨0, _⟩ => show win1_9.index t 0 * 5000 ≤ (i 0).val ∧ (i 0).val < win1_9.index t 0 * 5000 + 5000; rw [e0, ht]; omega
  | ⟨1, _⟩ => show win1_9.index t 1 * 32 ≤ (i 1).val ∧ (i 1).val < win1_9.index t 1 * 32 + 32; rw [e1]; omega

/-- Region 1 leaves the rest of the first layer, applied to the two products it finds, in its result array. -/
theorem region1_array (c : Dev nD) :
    (Gen.dat1 (F := Ideal) V c).arrAt 9 cfg1.N = Cert.Gin.post1 (V c main_v4) (V c main_v17) (Cert.Gin.rowOf (V c main_v18)) (Cert.Gin.rowOf (V c main_v19)) (Cert.Gin.rowOf (V c main_v20)) (Cert.Gin.rowOf (V c main_v21)) (Cert.Gin.rowOf (V c main_v22)) (V c main_arg8) (Cert.Gin.rowOf (V c main_v23)) :=
  (Gen.dat1 (F := Ideal) V c).arrAt_eq_of_cover 9 _ (fun t _ => flushed1_eq V c t) cover1

end Cert.KernelIdeal.RegionValue

end
-- ==== Proof.RegionMlpBody.lean ====
/-
  The arithmetic of region 2's body at one index of a block of 5000 rows.

  On a block of rows of the node features `x0` and of the neighbour sums `x1` the body takes the dense product of
  `x0 + x1` with `wa`, adds the bias row `ba`, normalises with the fixed statistics `m`, `v`, scales by `g`, shifts by
  `be`, rectifies, takes the dense product with `wb` and adds the bias row `bb`.  Read at (p, j) this is entry (p, j)
  of `Cert.Gin.layer2At` of the blocks: the changes of format are the identity on extended reals, a product into the
  zero accumulator is the plain sum over the contracted axis, and a bias row laid along the rows reads its entry j.
-/
import proofs.«171872_j42872363549081_2_alg».proof.Proof.Gen.KernelIdeal.Skeleton
import proofs.«171872_j42872363549081_2_alg».proof.Proof.GinSpec
import proofs.«171872_j42872363549081_2_alg».proof.Proof.LibAffine
import Idealize.ShloMosaic.Lib.Pipeline.Value
import Idealize.ShloMosaic.Lib.ValueLayout
import Idealize.ShloMosaic.Lib.ValueIdx

noncomputable section

open scoped BigOperators

namespace Cert.KernelIdeal.RegionValue

open Idealize.ShloMosaic Idealize.ShloMosaic.ValueIdx
open Cert.KernelIdeal Cert.KernelIdeal.Gen

/-! ## The two products' operand coordinates -/

theorem dotA_l0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl
theorem dotA_l1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem dotA_r0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem dotA_r1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

theorem dotB_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem dotB_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dotB_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dotB_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## The body's arithmetic at an index of the block -/

/-- The rectified normalised first product at (p, j): the normalisation and rectifier of the product's entry plus the
    bias. -/
theorem hidden_ix (x0 x1 : Vec Ideal S5000x32 .f32) (wa : Vec Ideal S32x64 .f32) (ba m v g be : Vec Ideal S1x64 .f32)
    (p : Fin 5000) (j : Fin 64) :
    k2_pay2 (F := Ideal) x0 x1 wa ba m v g be (ix2 p j)
      = Cert.Gin.bnRelu ((∑ s : Fin 32, (x0 (ix2 p s) + x1 (ix2 p s)) * wa (ix2 s j)) + ba (ix2 (0 : Fin 1) j))
          (m (ix2 (0 : Fin 1) j)) (v (ix2 (0 : Fin 1) j)) (g (ix2 (0 : Fin 1) j)) (be (ix2 (0 : Fin 1) j)) := by
  unfold k2_pay2 Cert.Gin.bnRelu Cert.Gin.eps
  simp only [matmul, truncf_apply, maximumf_apply, addf_apply, mulf_apply, subf_apply, broadcast_apply, shapeCast_self,
    broadcastTo_1b_ab_apply, Ideal.ofBits_def, Ideal.ofBits_zero_f32]
  rw [Cert.LibAffine.coreDot_ix2 dot_S5000x32_S32x64_S5000x64_1_0_0_1_n_n rfl rfl dotA_l0 dotA_l1 dotA_r0 dotA_r1]
  rfl

/-- The body's stored value at (p, j): the second product of the hidden row with `wb`, plus the bias — entry (p, j)
    of the layer of the blocks. -/
theorem block_ix (x0 x1 : Vec Ideal S5000x32 .f32) (wa : Vec Ideal S32x64 .f32) (ba m v g be : Vec Ideal S1x64 .f32)
    (wb : Vec Ideal S64x64 .f32) (bb : Vec Ideal S1x64 .f32) (p : Fin 5000) (j : Fin 64) :
    k2_pay1 (F := Ideal) (k2_pay2 x0 x1 wa ba m v g be) (k2_pay3 wb) (constant (F := Ideal) S5000x64 .f32 0x00000000#32) bb (ix2 p j)
      = Cert.Gin.layer2At x0 x1 wa (Cert.Gin.rowOf ba) (Cert.Gin.rowOf g) (Cert.Gin.rowOf be) (Cert.Gin.rowOf m)
          (Cert.Gin.rowOf v) wb (Cert.Gin.rowOf bb) p j := by
  unfold k2_pay1 k2_pay3
  simp only [matmul, addf_apply, shapeCast_self, broadcastTo_1b_ab_apply]
  rw [Cert.LibAffine.coreDot_ix2 dot_S5000x64_S64x64_S5000x64_1_0_0_1_n_n rfl rfl dotB_l0 dotB_l1 dotB_r0 dotB_r1]
  unfold Cert.Gin.layer2At Cert.Gin.mlpAt Cert.Gin.matOf Cert.Gin.rowOf
  refine congrArg (· + bb (ix2 (0 : Fin 1) j)) (Finset.sum_congr rfl fun q _ => ?_)
  rw [hidden_ix]
  rfl

end Cert.KernelIdeal.RegionValue

end
-- ==== Proof.RegionMlp.lean ====
/-
  Region 2's result array as one function of the arrays the region finds.

  The region's body, on a block of 5000 rows of the node features `feat` and of the neighbour sums `agg`, leaves entry
  (p, j) of `Cert.Gin.layer2At` of the blocks (`block_ix`, in the module on the body's arithmetic).  That entry reads
  only row p of the two row-tiled operands, and every other operand's block is the operand itself, so the twenty
  blocks of the result are the twenty blocks of rows of `Cert.Gin.layer2` of the whole arrays; they tile the result
  array: row r lies in the block of point r / 5000.

  * `index_facts`: which block of its array each window reads at a grid point;
  * `feat_block`, `agg_block`: a row of a row-tiled operand's block is a row of the operand;
  * `wa_block`, …, `bb_block`: every other operand's block is the operand;
  * `written_at`, `written_block`: what a grid point writes back is its block of rows of the layer of the whole arrays;
  * `mem_block`, `region2_array`: the blocks cover the result array, which therefore ends holding the layer.
-/
import proofs.«171872_j42872363549081_2_alg».proof.Proof.Gen.KernelIdeal.Frame
import proofs.«171872_j42872363549081_2_alg».proof.Proof.RegionMlpBody
import Idealize.ShloMosaic.Lib.Pipeline.Value
import Idealize.ShloMosaic.Lib.ValueLayout
import Idealize.ShloMosaic.Lib.ValueIdx

noncomputable section

open scoped BigOperators

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-! ## The windows' blocks as parts of the arrays the region finds -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: a row-tiled window's block at point t is block (t, 0), every other
    window's is block (0, 0). -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

/-- Row y of `feat`'s block at point t is row 5000·t + y of `feat`. -/
theorem feat_block (c : Dev nD) (t : Fin cfg2.N) (y : S5000x32.Idx) (i : S100000x32.Idx)
    (h0 : (i 0).val = 5000 * t.val + (y 0).val) (h1 : (i 1).val = (y 1).val) :
    (iblk2 V c 0 t : Vec Ideal S5000x32 .f32) y = (V c main_v24 : S100000x32.Idx → EReal) i := by
  obtain ⟨⟨e0, e1⟩, -⟩ := index_facts t
  unfold iblk2
  rw [View.read_apply]
  show V c main_v24 _ = V c main_v24 _
  congr 1
  funext a
  apply Fin.ext
  match a with
  | ⟨0, _⟩ => show win2_0.index t 0 * 5000 + 1 * (y 0).val = (i 0).val; rw [e0, h0]; omega
  | ⟨1, _⟩ => show win2_0.index t 1 * 32 + 1 * (y 1).val = (i 1).val; rw [e1, h1]; omega

/-- Row y of `agg`'s block at point t is row 5000·t + y of `agg`. -/
theorem agg_block (c : Dev nD) (t : Fin cfg2.N) (y : S5000x32.Idx) (i : S100000x32.Idx)
    (h0 : (i 0).val = 5000 * t.val + (y 0).val) (h1 : (i 1).val = (y 1).val) :
    (iblk2 V c 1 t : Vec Ideal S5000x32 .f32) y = (V c main_v37 : S100000x32.Idx → EReal) i := by
  obtain ⟨-, ⟨e0, e1⟩, -⟩ := index_facts t
  unfold iblk2
  rw [View.read_apply]
  show V c main_v37 _ = V c main_v37 _
  congr 1
  funext a
  apply Fin.ext
  match a with
  | ⟨0, _⟩ => show win2_1.index t 0 * 5000 + 1 * (y 0).val = (i 0).val; rw [e0, h0]; omega
  | ⟨1, _⟩ => show win2_1.index t 1 * 32 + 1 * (y 1).val = (i 1).val; rw [e1, h1]; omega

/-- `Wa`'s block at every point is `Wa`. -/
theorem wa_block (c : Dev nD) (t : Fin cfg2.N) :
    (iblk2 V c 2 t : Vec Ideal S32x64 .f32) = (V c main_arg10 : S32x64.Idx → EReal) := by
  obtain ⟨-, -, ⟨e0, e1⟩, -⟩ := index_facts t
  funext y
  unfold iblk2
  rw [View.read_apply]
  show V c main_arg10 _ = V c main_arg10 _
  congr 1
  funext a
  apply Fin.ext
  match a with
  | ⟨0, _⟩ => show win2_2.index t 0 * 32 + 1 * (y 0).val = (y 0).val; rw [e0]; omega
  | ⟨1, _⟩ => show win2_2.index t 1 * 64 + 1 * (y 1).val = (y 1).val; rw [e1]; omega

/-- The first bias row's block at every point is the row. -/
theorem ba_block (c : Dev nD) (t : Fin cfg2.N) :
    (iblk2 V c 3 t : Vec Ideal S1x64 .f32) = (V c main_v38 : S1x64.Idx → EReal) := by
  obtain ⟨-, -, -, ⟨e0, e1⟩, -⟩ := index_facts t
  funext y
  unfold iblk2
  rw [View.read_apply]
  show V c main_v38 _ = V c main_v38 _
  congr 1
  funext a
  apply Fin.ext
  match a with
  | ⟨0, _⟩ => show win2_3.index t 0 * 1 + 1 * (y 0).val = (y 0).val; rw [e0]; omega
  | ⟨1, _⟩ => show win2_3.index t 1 * 64 + 1 * (y 1).val = (y 1).val; rw [e1]; omega

/-- The scale row's block at every point is the row. -/
theorem g_block (c : Dev nD) (t : Fin cfg2.N) :
    (iblk2 V c 4 t : Vec Ideal S1x64 .f32) = (V c main_v39 : S1x64.Idx → EReal) := by
  obtain ⟨-, -, -, -, ⟨e0, e1⟩, -⟩ := index_facts t
  funext y
  unfold iblk2
  rw [View.read_apply]
  show V c main_v39 _ = V c main_v39 _
  congr 1
  funext a
  apply Fin.ext
  match a with
  | ⟨0, _⟩ => show win2_4.index t 0 * 1 + 1 * (y 0).val = (y 0).val; rw [e0]; omega
  | ⟨1, _⟩ => show win2_4.index t 1 * 64 + 1 * (y 1).val = (y 1).val; rw [e1]; omega

/-- The shift row's block at every point is the row. -/
theorem be_block (c : Dev nD) (t : Fin cfg2.N) :
    (iblk2 V c 5 t : Vec Ideal S1x64 .f32) = (V c main_v40 : S1x64.Idx → EReal) := by
  obtain ⟨-, -, -, -, -, ⟨e0, e1⟩, -⟩ := index_facts t
  funext y
  unfold iblk2
  rw [View.read_apply]
  show V c main_v40 _ = V c main_v40 _
  congr 1
  funext a
  apply Fin.ext
  match a with
  | ⟨0, _⟩ => show win2_5.index t 0 * 1 + 1 * (y 0).val = (y 0).val; rw [e0]; omega
  | ⟨1, _⟩ => show win2_5.index t 1 * 64 + 1 * (y 1).val = (y 1).val; rw [e1]; omega

/-- The mean row's block at every point is the row. -/
theorem m_block (c : Dev nD) (t : Fin cfg2.N) :
    (iblk2 V c 6 t : Vec Ideal S1x64 .f32) = (V c main_v41 : S1x64.Idx → EReal) := by
  obtain ⟨-, -, -, -, -, -, ⟨e0, e1⟩, -⟩ := index_facts t
  funext y
  unfold iblk2
  rw [View.read_apply]
  show V c main_v41 _ = V c main_v41 _
  congr 1
  funext a
  apply Fin.ext
  match a with
  | ⟨0, _⟩ => show win2_6.index t 0 * 1 + 1 * (y 0).val = (y 0).val; rw [e0]; omega
  | ⟨1, _⟩ => show win2_6.index t 1 * 64 + 1 * (y 1).val = (y 1).val; rw [e1]; omega

/-- The variance row's block at every point is the row. -/
theorem v_block (c : Dev nD) (t : Fin cfg2.N) :
    (iblk2 V c 7 t : Vec Ideal S1x64 .f32) = (V c main_v42 : S1x64.Idx → EReal) := by
  obtain ⟨-, -, -, -, -, -, -, ⟨e0, e1⟩, -⟩ := index_facts t
  funext y
  unfold iblk2
  rw [View.read_apply]
  show V c main_v42 _ = V c main_v42 _
  congr 1
  funext a
  apply Fin.ext
  match a with
  | ⟨0, _⟩ => show win2_7.index t 0 * 1 + 1 * (y 0).val = (y 0).val; rw [e0]; omega
  | ⟨1, _⟩ => show win2_7.index t 1 * 64 + 1 * (y 1).val = (y 1).val; rw [e1]; omega

/-- `Wb`'s block at every point is `Wb`. -/
theorem wb_block (c : Dev nD) (t : Fin cfg2.N) :
    (iblk2 V c 8 t : Vec Ideal S64x64 .f32) = (V c main_arg16 : S64x64.Idx → EReal) := by
  obtain ⟨-, -, -, -, -, -, -, -, ⟨e0, e1⟩, -⟩ := index_facts t
  funext y
  unfold iblk2
  rw [View.read_apply]
  show V c main_arg16 _ = V c main_arg16 _
  congr 1
  funext a
  apply Fin.ext
  match a with
  | ⟨0, _⟩ => show win2_8.index t 0 * 64 + 1 * (y 0).val = (y 0).val; rw [e0]; omega
  | ⟨1, _⟩ => show win2_8.index t 1 * 64 + 1 * (y 1).val = (y 1).val; rw [e1]; omega

/-- The second bias row's block at every point is the row. -/
theorem bb_block (c : Dev nD) (t : Fin cfg2.N) :
    (iblk2 V c 9 t : Vec Ideal S1x64 .f32) = (V c main_v43 : S1x64.Idx → EReal) := by
  obtain ⟨-, -, -, -, -, -, -, -, -, ⟨e0, e1⟩, -⟩ := index_facts t
  funext y
  unfold iblk2
  rw [View.read_apply]
  show V c main_v43 _ = V c main_v43 _
  congr 1
  funext a
  apply Fin.ext
  match a with
  | ⟨0, _⟩ => show win2_9.index t 0 * 1 + 1 * (y 0).val = (y 0).val; rw [e0]; omega
  | ⟨1, _⟩ => show win2_9.index t 1 * 64 + 1 * (y 1).val = (y 1).val; rw [e1]; omega

/-! ## What a point writes back, and the array after the region -/

/-- The body's stored value at row y of point t's block is the layer of the whole arrays at row 5000·t + y. -/
theorem written_at (c : Dev nD) (t : Fin cfg2.N) (y : S5000x64.Idx) (i : S100000x64.Idx)
    (h0 : (i 0).val = 5000 * t.val + (y 0).val) (h1 : (i 1).val = (y 1).val) :
    k2_pay1 (F := Ideal)
        (k2_pay2 (iblk2 V c 0 t) (iblk2 V c 1 t) (V c main_arg10) (V c main_v38) (V c main_v41) (V c main_v42)
          (V c main_v39) (V c main_v40))
        (k2_pay3 (V c main_arg16)) (constant (F := Ideal) S5000x64 .f32 0x00000000#32) (V c main_v43) y
      = (Cert.Gin.layer2 (V c main_v24) (V c main_v37) (V c main_arg10) (Cert.Gin.rowOf (V c main_v38)) (Cert.Gin.rowOf (V c main_v39)) (Cert.Gin.rowOf (V c main_v40)) (Cert.Gin.rowOf (V c main_v41)) (Cert.Gin.rowOf (V c main_v42)) (V c main_arg16) (Cert.Gin.rowOf (V c main_v43))) i := by
  obtain ⟨p, j, rfl⟩ : ∃ (p : Fin 5000) (j : Fin 64), y = ix2 p j := ⟨y 0, y 1, eq_ix2 y⟩
  obtain ⟨p', j', rfl⟩ : ∃ (p' : Fin 100000) (j' : Fin 64), i = ix2 p' j' := ⟨i 0, i 1, eq_ix2 i⟩
  obtain rfl : j' = j := Fin.ext h1
  refine (block_ix (iblk2 V c 0 t) (iblk2 V c 1 t) (V c main_arg10) (V c main_v38) (V c main_v41) (V c main_v42)
    (V c main_v39) (V c main_v40) (V c main_arg16) (V c main_v43) p j').trans ?_
  rw [Cert.Gin.layer2_ix2]
  exact Cert.Gin.layer2At_congr _ _ _ _ _ _ _ _ _ _ _ _ p p' j'
    (fun s => feat_block V c t (ix2 p s) (ix2 p' s) h0 rfl) (fun s => agg_block V c t (ix2 p s) (ix2 p' s) h0 rfl)

/-- What point t writes back is its block of rows of the layer of the whole arrays. -/
theorem written_block (c : Dev nD) (t : Fin cfg2.N) :
    (dat2 (F := Ideal) V c).flushed 10 t = ((cfg2.win 10).blk t).view.read (Elt Ideal)
      (Cert.Gin.layer2 (V c main_v24) (V c main_v37) (V c main_arg10) (Cert.Gin.rowOf (V c main_v38)) (Cert.Gin.rowOf (V c main_v39)) (Cert.Gin.rowOf (V c main_v40)) (Cert.Gin.rowOf (V c main_v41)) (Cert.Gin.rowOf (V c main_v42)) (V c main_arg16) (Cert.Gin.rowOf (V c main_v43))) := by
  show (cfg2.win 10).cut (grid2.coords t) ((dat2 V c).after 10 t) = _
  rw [after2_10]
  unfold out2_10
  rw [View.canon_unit_zero zero_offsets]
  simp only [View.ld_unit_zero (S := S5000x32) zero_offsets, View.ld_unit_zero (S := S32x64) zero_offsets,
    View.ld_unit_zero (S := S1x64) zero_offsets, View.ld_unit_zero (S := S64x64) zero_offsets]
  rw [wa_block, ba_block, g_block, be_block, m_block, v_block, wb_block, bb_block]
  obtain ⟨-, -, -, -, -, -, -, -, -, -, ⟨e0, e1⟩⟩ := index_facts t
  funext y
  rw [View.read_apply]
  refine written_at V c t (win2_10.xinj (grid2.coords t) y) _ ?_ ?_
  · show win2_10.index t 0 * 5000 + 1 * (y 0).val = 5000 * t.val + (y 0).val
    rw [e0]; omega
  · show win2_10.index t 1 * 64 + 1 * (y 1).val = (y 1).val
    rw [e1]; omega

/-- An index of the result array is in point t's block iff each coordinate is in the block's range on its axis. -/
theorem mem_block (t : Fin cfg2.N) (i : S100000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v44).slice (win2_10.rect t)).set ↔ _
  rw [View.set_slice_whole, Rect.mem_set_unit]
  exact Iff.rfl

/-- THE ARRAY after the region: the layer of the arrays the region finds.  Row r is in the block of point r / 5000. -/
theorem region2_array (c : Dev nD) :
    (Gen.dat2 (F := Ideal) V c).arrAt 10 cfg2.N = Cert.Gin.layer2 (V c main_v24) (V c main_v37) (V c main_arg10) (Cert.Gin.rowOf (V c main_v38)) (Cert.Gin.rowOf (V c main_v39)) (Cert.Gin.rowOf (V c main_v40)) (Cert.Gin.rowOf (V c main_v41)) (Cert.Gin.rowOf (V c main_v42)) (V c main_arg16) (Cert.Gin.rowOf (V c main_v43)) :=
  (dat2 (F := Ideal) V c).arrAt_eq_of_cover 10 _ (fun t _ => written_block V c t) fun i => by
    have hN : grid2.N = 20 := N_2
    have hi0 : (i 0).val < 100000 := (i 0).isLt
    have hi1 : (i 1).val < 64 := (i 1).isLt
    have ht : (i 0).val / 5000 < cfg2.N := by show _ < grid2.N; rw [hN]; omega
    obtain ⟨-, -, -, -, -, -, -, -, -, -, ⟨e0, e1⟩⟩ := index_facts ⟨(i 0).val / 5000, ht⟩
    refine ⟨⟨(i 0).val / 5000, ht⟩, flush2_10 _, ?_⟩
    rw [mem_block]
    intro a
    match a with
    | ⟨0, _⟩ =>
      show win2_10.index ⟨(i 0).val / 5000, ht⟩ (0 : Fin 2) * 5000 ≤ (i 0).val
        ∧ (i 0).val < win2_10.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win2_10.index ⟨(i 0).val / 5000, ht⟩ (1 : Fin 2) * 64 ≤ (i 1).val
        ∧ (i 1).val < win2_10.index ⟨(i 0).val / 5000, ht⟩ (1 : Fin 2) * 64 + 64
      rw [e1]; omega

end Cert.KernelIdeal.RegionValue

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibHostMlp.lean ====
/-
  General lemmas: a small network written with whole-array host operations, read at an index.

  The host writes the network on an [a, k] array `Z` as: add a bias vector laid along every row, subtract a mean vector,
  multiply by the reciprocal square root of a variance vector plus a constant, multiply by a scale vector, add a shift
  vector, take the maximum with zero, multiply by a [k, n] weight, add a bias vector.  Every vector [k] reaches the
  array through a [1, k] row and then a broadcast along both axes; the constants are scalars broadcast everywhere.

  * `rowBcast_apply`: a vector laid along every row, through a one-row array, reads at (p, q) the vector's entry q;
  * `colBcast_apply`: a vector laid along every column, through a one-column array, reads at (p, c) the vector's entry p;
  * `scalarBcast_apply`: a scalar laid over a whole array reads the scalar at every index;
  * `hostBnRelu_apply`: the normalise-and-rectify part at (p, q) is `Cert.Gin.bnRelu` of the entry and the vectors' entries q;
  * `hostMlp_apply`: the whole chain at (p, j) is `Cert.Gin.mlpAt` of row p of `Z`;
  * `hostDense_eq`: the host's plain product is `Cert.Gin.dense`;
  * `rowOf_shapeCast`: the one row of a vector reshaped into a [1, n] array is the vector.
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws
import proofs.«171872_j42872363549081_2_alg».proof.Proof.GinSpec
import proofs.«171872_j42872363549081_2_alg».proof.Proof.LibAffine
import proofs.«171872_j42872363549081_2_alg».proof.Proof.LibColumnRow

noncomputable section

open scoped BigOperators

namespace Cert.LibHostMlp

open Idealize.ShloMosaic Idealize.ShloMosaic.ValueIdx Cert.Gin

variable {a k n : ℕ}

/-- A vector [k] laid along every row of an [a, k] array, through a [1, k] row, reads at (p, q) the vector's entry q. -/
theorem rowBcast_apply {α : Type} (hd1 : (⟨1, ![k]⟩ : Shape).BroadcastsInDim ⟨2, ![1, k]⟩ ![1])
    (hd2 : (⟨2, ![1, k]⟩ : Shape).BroadcastsInDim ⟨2, ![a, k]⟩ ![0, 1]) (x : (⟨1, ![k]⟩ : Shape).Idx → α) (p : Fin a) (q : Fin k) :
    broadcastInDim ⟨2, ![a, k]⟩ ![0, 1] hd2 (broadcastInDim ⟨2, ![1, k]⟩ ![1] hd1 x) (ix2 p q) = x (ix1 q) := by
  rw [Cert.LibAffine.broadcastInDim_1n_an_apply, Cert.LibColumnRow.broadcastInDim_n_1n_apply]

/-- A vector [a] laid along every column of an [a, b] array, through an [a, 1] column, reads at (p, c) the vector's
    entry p. -/
theorem colBcast_apply {α : Type} {b : ℕ} (hd1 : (⟨1, ![a]⟩ : Shape).BroadcastsInDim ⟨2, ![a, 1]⟩ ![0])
    (hd2 : (⟨2, ![a, 1]⟩ : Shape).BroadcastsInDim ⟨2, ![a, b]⟩ ![0, 1]) (x : (⟨1, ![a]⟩ : Shape).Idx → α) (p : Fin a) (c : Fin b) :
    broadcastInDim ⟨2, ![a, b]⟩ ![0, 1] hd2 (broadcastInDim ⟨2, ![a, 1]⟩ ![0] hd1 x) (ix2 p c) = x (ix1 p) := by
  rw [broadcastInDim_apply ![0, 1] hd2 _ (ix2 p c) (ix2 p (0 : Fin 1)) (fun ax => by
    match ax with
    | ⟨0, _⟩ =>
      show p.val = if a = 1 then 0 else p.val
      split
      · have := p.isLt; omega
      · rfl
    | ⟨1, _⟩ =>
      show (0 : ℕ) = if (1 : ℕ) = 1 then 0 else c.val
      rw [if_pos rfl]),
    Cert.LibColumnRow.broadcastInDim_a_a1_apply]

/-- A scalar laid over a whole array reads the scalar at every index. -/
theorem scalarBcast_apply {α : Type} {t : Shape} (hd : (⟨0, ![]⟩ : Shape).BroadcastsInDim t ![])
    (y : (⟨0, ![]⟩ : Shape).Idx → α) (i : t.Idx) :
    broadcastInDim t ![] hd y i = y (fun d => d.elim0) :=
  broadcastInDim_apply _ hd y i (fun d => d.elim0) (fun d => d.elim0)

/-- The one row of a vector reshaped into a [1, n] array is the vector. -/
theorem rowOf_shapeCast (x : FVec Ideal ⟨1, ![n]⟩ .f32) (h : (⟨1, ![n]⟩ : Shape).ShapeCasts ⟨2, ![1, n]⟩) :
    rowOf (shapeCast ⟨2, ![1, n]⟩ x h) = vecOf x := by
  funext j
  unfold rowOf vecOf
  exact shapeCast_apply x h _ _ (by
    rw [Shape.rowMajor_val_two, Shape.rowMajor_val_one]
    show j.val = 0 * n + j.val
    omega)

/-- The host's plain product [a, k] × [k, n], whose record contracts the left operand's columns against the right
    operand's rows, is the dense product. -/
theorem hostDense_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = dense L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1]
  rfl

section Chain

variable (hd1 : (⟨1, ![k]⟩ : Shape).BroadcastsInDim ⟨2, ![1, k]⟩ ![1])
  (hd2 : (⟨2, ![1, k]⟩ : Shape).BroadcastsInDim ⟨2, ![a, k]⟩ ![0, 1])
  (hdz : (⟨0, ![]⟩ : Shape).BroadcastsInDim ⟨2, ![a, k]⟩ ![])
  (hde : (⟨0, ![]⟩ : Shape).BroadcastsInDim ⟨1, ![k]⟩ ![])

/-- The normalise-and-rectify part of the chain, as the host writes it on whole arrays. -/
def hostBnRelu (Z : FVec Ideal ⟨2, ![a, k]⟩ .f32) (ba g be m v : FVec Ideal ⟨1, ![k]⟩ .f32) : FVec Ideal ⟨2, ![a, k]⟩ .f32 :=
  maximumf
    (addf
      (mulf
        (mulf
          (subf (addf Z (broadcastInDim ⟨2, ![a, k]⟩ ![0, 1] hd2 (broadcastInDim ⟨2, ![1, k]⟩ ![1] hd1 ba)))
            (broadcastInDim ⟨2, ![a, k]⟩ ![0, 1] hd2 (broadcastInDim ⟨2, ![1, k]⟩ ![1] hd1 m)))
          (broadcastInDim ⟨2, ![a, k]⟩ ![0, 1] hd2 (broadcastInDim ⟨2, ![1, k]⟩ ![1] hd1
            (Host.rsqrt (addf v (broadcastInDim ⟨1, ![k]⟩ ![] hde (constant (F := Ideal) ⟨0, ![]⟩ .f32 0x3727C5AC#32)))))))
        (broadcastInDim ⟨2, ![a, k]⟩ ![0, 1] hd2 (broadcastInDim ⟨2, ![1, k]⟩ ![1] hd1 g)))
      (broadcastInDim ⟨2, ![a, k]⟩ ![0, 1] hd2 (broadcastInDim ⟨2, ![1, k]⟩ ![1] hd1 be)))
    (broadcastInDim ⟨2, ![a, k]⟩ ![] hdz (constant (F := Ideal) ⟨0, ![]⟩ .f32 0x00000000#32))

/-- At (p, q) the normalise-and-rectify part is `bnRelu` of the entry plus the bias, with the vectors' entries q. -/
theorem hostBnRelu_apply (Z : FVec Ideal ⟨2, ![a, k]⟩ .f32) (ba g be m v : FVec Ideal ⟨1, ![k]⟩ .f32) (p : Fin a) (q : Fin k) :
    hostBnRelu hd1 hd2 hdz hde Z ba g be m v (ix2 p q)
      = bnRelu (Z (ix2 p q) + vecOf ba q) (vecOf m q) (vecOf v q) (vecOf g q) (vecOf be q) := by
  unfold hostBnRelu
  rw [maximumf_apply, addf_apply, mulf_apply, mulf_apply, subf_apply, addf_apply,
    rowBcast_apply, rowBcast_apply, rowBcast_apply, rowBcast_apply, rowBcast_apply, scalarBcast_apply, constant_apply,
    Ideal.ofBits_zero_f32]
  show max (((Z (ix2 p q) + ba (ix1 q) - m (ix1 q)) * Ideal.rsqrt (v (ix1 q)
      + broadcastInDim ⟨1, ![k]⟩ ![] hde (constant (F := Ideal) ⟨0, ![]⟩ .f32 0x3727C5AC#32) (ix1 q))) * g (ix1 q) + be (ix1 q)) 0 = _
  rw [scalarBcast_apply, constant_apply]
  rfl

variable (hd1' : (⟨1, ![n]⟩ : Shape).BroadcastsInDim ⟨2, ![1, n]⟩ ![1])
  (hd2' : (⟨2, ![1, n]⟩ : Shape).BroadcastsInDim ⟨2, ![a, n]⟩ ![0, 1])

/-- The whole chain at (p, j): the small network on row p of `Z`. -/
theorem hostMlp_apply (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (Z : FVec Ideal ⟨2, ![a, k]⟩ .f32) (ba g be m v : FVec Ideal ⟨1, ![k]⟩ .f32) (Wb : FVec Ideal ⟨2, ![k, n]⟩ .f32)
    (bb : FVec Ideal ⟨1, ![n]⟩ .f32) (p : Fin a) (j : Fin n) :
    addf (Host.dotGeneral D prec (hostBnRelu hd1 hd2 hdz hde Z ba g be m v) Wb)
        (broadcastInDim ⟨2, ![a, n]⟩ ![0, 1] hd2' (broadcastInDim ⟨2, ![1, n]⟩ ![1] hd1' bb)) (ix2 p j)
      = mlpAt (fun q => Z (ix2 p q)) (vecOf ba) (vecOf g) (vecOf be) (vecOf m) (vecOf v) (matOf Wb) (vecOf bb) j := by
  rw [addf_apply, Cert.LibAffine.hostDot_ix2 D hr hs hl0 hl1 hr0 hr1, rowBcast_apply]
  unfold mlpAt
  refine congrArg (· + vecOf bb j) (Finset.sum_congr rfl fun q _ => ?_)
  rw [hostBnRelu_apply]
  rfl

end Chain

end Cert.LibHostMlp

end
-- ==== Proof.RefLayers.lean ====
/-
  The reference program's two layers, read as the specification's functions.

  The reference computes, for the node features `x`: the neighbour sum of `x`, added to `x`; the dense product with the
  first weight; the small network (bias, normalisation, rectifier, second product, bias); a rectifier: this is the
  hidden array.  Then the same on the hidden array with the second layer's parameters, without the last rectifier.
  Each small network is written with whole-array host operations; read at an index it is `Cert.Gin.mlpAt` of one row
  of the array that enters it.
-/
import proofs.«171872_j42872363549081_2_alg».proof.Proof.Gen.ReferenceIdeal.Read
import proofs.«171872_j42872363549081_2_alg».proof.Proof.LibHostMlp

noncomputable section

open scoped BigOperators

namespace Cert.ReferenceIdeal.Layers

open Cert.ReferenceIdeal Cert.ReferenceIdeal.Gen Cert.ReferenceIdeal.Read Idealize.ShloMosaic Idealize.ShloMosaic.ValueIdx Cert.Gin

variable (x0 : FVec Ideal S100000x128 .f32) (x1 : FVec Ideal S1600000 .f32) (x2 : FVec Ideal S128x32 .f32)
  (x3 x4 x5 x6 x7 : FVec Ideal S32 .f32) (x8 : FVec Ideal S32x32 .f32) (x9 : FVec Ideal S32 .f32)
  (x10 : FVec Ideal S32x64 .f32) (x11 x12 x13 x14 x15 : FVec Ideal S64 .f32) (x16 : FVec Ideal S64x64 .f32)
  (x17 : FVec Ideal S64 .f32) (x18 : IVec S2x1600000 32)

/-- The first product of the first layer is the dense product of `x` plus its neighbour sum with the first weight. -/
theorem first_product :
    val_main_v18 (F := Ideal) x0 x1 x2 x18 = dense (val_main_v17 (F := Ideal) x0 x1 x18) x2 :=
  Cert.LibHostMlp.hostDense_eq dot_S100000x128_S128x32_S100000x32_1_0_0_1_n_n rfl rfl
    lhs_main_v18_0 lhs_main_v18_1 rhs_main_v18_0 rhs_main_v18_1 none _ _

/-- The first layer before its last rectifier, at (p, j): the small network on row p of the first product. -/
theorem layer1_pre_at (p : Fin 100000) (j : Fin 32) :
    val_main_v41 (F := Ideal) x0 x1 x2 x3 x4 x5 x6 x7 x8 x9 x18 (ix2 p j)
      = mlpAt (fun q => dense (val_main_v17 (F := Ideal) x0 x1 x18) x2 (ix2 p q))
          (vecOf x3) (vecOf x4) (vecOf x5) (vecOf x6) (vecOf x7) (matOf x8) (vecOf x9) j := by
  rw [← first_product]
  exact Cert.LibHostMlp.hostMlp_apply bcast_S32_S1x32_1 bcast_S1x32_S100000x32_0_1 bcast_S_S100000x32 bcast_S_S32
    bcast_S32_S1x32_1 bcast_S1x32_S100000x32_0_1 dot_S100000x32_S32x32_S100000x32_1_0_0_1_n_n rfl rfl
    lhs_main_v38_0 lhs_main_v38_1 rhs_main_v38_0 rhs_main_v38_1 none
    (val_main_v18 (F := Ideal) x0 x1 x2 x18) x3 x4 x5 x6 x7 x8 x9 p j

/-- The hidden array at (p, j): the small network on row p of the first product, rectified. -/
theorem hidden_at (p : Fin 100000) (j : Fin 32) :
    val_main_v42 (F := Ideal) x0 x1 x2 x3 x4 x5 x6 x7 x8 x9 x18 (ix2 p j)
      = max (mlpAt (fun q => dense (val_main_v17 (F := Ideal) x0 x1 x18) x2 (ix2 p q))
          (vecOf x3) (vecOf x4) (vecOf x5) (vecOf x6) (vecOf x7) (matOf x8) (vecOf x9) j) 0 := by
  rw [val_main_v42_apply, layer1_pre_at]
  unfold val_main_call1_v0 val_main_call1_cst
  rw [Cert.LibHostMlp.scalarBcast_apply, constant_apply, Ideal.ofBits_zero_f32]
  rfl

/-- The second layer's first product is the dense product of the hidden array plus its neighbour sum. -/
theorem second_product :
    val_main_v61 (F := Ideal) x0 x1 x2 x3 x4 x5 x6 x7 x8 x9 x10 x18
      = dense (val_main_v60 (F := Ideal) x0 x1 x2 x3 x4 x5 x6 x7 x8 x9 x18) x10 :=
  Cert.LibHostMlp.hostDense_eq dot_S100000x32_S32x64_S100000x64_1_0_0_1_n_n rfl rfl
    lhs_main_v61_0 lhs_main_v61_1 rhs_main_v61_0 rhs_main_v61_1 none _ _

/-- The result at (p, j): the second layer on row p of the hidden array and of its neighbour sum. -/
theorem result_at (p : Fin 100000) (j : Fin 64) :
    val_main_v84 (F := Ideal) x0 x1 x2 x3 x4 x5 x6 x7 x8 x9 x10 x11 x12 x13 x14 x15 x16 x17 x18 (ix2 p j)
      = layer2At (val_main_v42 (F := Ideal) x0 x1 x2 x3 x4 x5 x6 x7 x8 x9 x18) (val_main_v59 (F := Ideal) x0 x1 x2 x3 x4 x5 x6 x7 x8 x9 x18) x10
          (vecOf x11) (vecOf x12) (vecOf x13) (vecOf x14) (vecOf x15) x16 (vecOf x17) p j := by
  have h := Cert.LibHostMlp.hostMlp_apply bcast_S64_S1x64_1 bcast_S1x64_S100000x64_0_1 bcast_S_S100000x64 bcast_S_S64
    bcast_S64_S1x64_1 bcast_S1x64_S100000x64_0_1 dot_S100000x64_S64x64_S100000x64_1_0_0_1_n_n rfl rfl
    lhs_main_v81_0 lhs_main_v81_1 rhs_main_v81_0 rhs_main_v81_1 none
    (val_main_v61 (F := Ideal) x0 x1 x2 x3 x4 x5 x6 x7 x8 x9 x10 x18) x11 x12 x13 x14 x15 x16 x17 p j
  refine (h.trans ?_)
  rw [second_product]
  rfl

/-- The result, whole: the second layer of the hidden array and its neighbour sum. -/
theorem result_eq :
    val_main_v84 (F := Ideal) x0 x1 x2 x3 x4 x5 x6 x7 x8 x9 x10 x11 x12 x13 x14 x15 x16 x17 x18
      = layer2 (val_main_v42 (F := Ideal) x0 x1 x2 x3 x4 x5 x6 x7 x8 x9 x18) (val_main_v59 (F := Ideal) x0 x1 x2 x3 x4 x5 x6 x7 x8 x9 x18) x10
          (vecOf x11) (vecOf x12) (vecOf x13) (vecOf x14) (vecOf x15) x16 (vecOf x17) := by
  funext i
  obtain ⟨p, j, rfl⟩ : ∃ (p : Fin 100000) (j : Fin 64), i = ix2 p j := ⟨i 0, i 1, eq_ix2 i⟩
  rw [result_at, layer2_ix2]

end Cert.ReferenceIdeal.Layers

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.NeighbourSum.lean ====
/-
  The weighted neighbour sum of a graph, and the law that a dense product distributes over it.

  Each edge e carries a source node, a target node and a weight w e.  The neighbour sum of a table x of node rows
  is, at node n, the sum over the edges whose target is n of the source's row times the edge's weight.  It is
  computed by a gather of the sources' rows, an elementwise product with the weights and an accumulating scatter at
  the targets.

  * "rowScatter_resultIdx_iff": where an update element lands under the row scatter;
  * "rowScatter_apply": the row scatter read at an index, as a sum over the edges whose target is that row;
  * "dense_neighbourSum": (x + nbr x) · W = x · W + nbr (x · W) when every number involved is a real.
-/
import proofs.«171872_j42872363549081_2_alg».proof.Proof.GinSpec
import proofs.«171872_j42872363549081_2_alg».proof.Proof.LibSegmentSum

noncomputable section

open scoped BigOperators

namespace Cert.Gin

open Idealize.ShloMosaic Idealize.ShloMosaic.ValueIdx

/-! ## The row scatter read at an index -/

section Scatter
variable {N E C w : ℕ}

/-- The first coordinate of a rank-2 index built from its coordinates. -/
theorem ix2_zero {n0 n1 : ℕ} (a : Fin n0) (b : Fin n1) : (ix2 a b) 0 = a := rfl
/-- The second coordinate of a rank-2 index built from its coordinates. -/
theorem ix2_one {n0 n1 : ℕ} (a : Fin n0) (b : Fin n1) : (ix2 a b) 1 = b := rfl

private theorem fin2_one_ne_zero : ¬((1 : Fin 2) = 0) := by decide

/-- On the row axis the window starts at the update row's start index, read signed. -/
theorem rowScatter_start_zero (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (SegmentSum.rowScatterDims N E C wf).start j idx 0 = (idx (ix2 (j 0) 0)).toInt := by
  unfold ScatterDims.start
  rw [dif_pos (show (0 : Fin 2) ∈ (SegmentSum.rowScatterDims N E C wf).scatterDimsToOperandDims from
    List.mem_singleton.mpr rfl)]
  have hsi : (SegmentSum.rowScatterDims N E C wf).siIdx j
      ⟨List.idxOf (0 : Fin 2) (SegmentSum.rowScatterDims N E C wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis, which no start index component names, the window starts at 0. -/
theorem rowScatter_start_one (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (SegmentSum.rowScatterDims N E C wf).start j idx 1 = 0 := by
  unfold ScatterDims.start
  rw [dif_neg]
  intro h
  exact absurd (List.mem_singleton.mp h) fin2_one_ne_zero

/-- The row axis is inserted: the window coordinate there is 0. -/
theorem rowScatter_window_zero (wf : ScatterDims.WF ⟨2, ![N, C]⟩ ⟨2, ![E, 1]⟩ ⟨2, ![E, C]⟩ [1] [0] [0] 1)
    (j : (⟨2, ![E, C]⟩ : Shape).Idx) :
    (SegmentSum.rowScatterDims N E C wf).window j 0 = 0 := by
  unfold ScatterDims.window
  rw [dif_neg]
  intro hmem
  have := (List.mem_filter.mp hmem).2
  simp at this

/-- The column axis is the one kept axis: the window coordinate there is the update's column. -/
theorem rowScatter_window_one (wf : ScatterDims.WF ⟨2, ![N, C]⟩ ⟨2, ![E, 1]⟩ ⟨2, ![E, C]⟩ [1] [0] [0] 1)
    (j : (⟨2, ![E, C]⟩ : Shape).Idx) :
    (SegmentSum.rowScatterDims N E C wf).window j 1 = (j 1).val := by
  have h1 : (1 : Fin 2) ∈ (SegmentSum.rowScatterDims N E C wf).sKept := by
    refine List.mem_filter.mpr ⟨List.mem_finRange _, ?_⟩
    simp
  unfold ScatterDims.window
  rw [dif_pos h1]
  rfl

/-- Where an update element lands under the row scatter: element (e, c') of the updates lands on element (n, c) of
    the table exactly when the e-th start index, read signed, is n and c' = c.  (On the row axis the landing place
    is the start index plus 0, on the column axis it is 0 plus the update's column; a start index outside [0, N)
    lands nowhere.) -/
theorem rowScatter_resultIdx_iff (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (SegmentSum.rowScatterDims N E C wf).resultIdx? j idx = some i
      ↔ (idx (ix2 (j 0) 0)).toInt = ((i 0).val : Int) ∧ (j 1).val = (i 1).val := by
  have hs0 := rowScatter_start_zero wf idx j
  have hs1 := rowScatter_start_one wf idx j
  have hw0 := rowScatter_window_zero wf j
  have hw1 := rowScatter_window_one wf j
  have hi0 : (i 0).val < N := idx2_lt0 i
  have hi1 : (i 1).val < C := idx2_lt1 i
  unfold ScatterDims.resultIdx?
  split
  · rename_i hall
    constructor
    · intro h
      have hi := Option.some.inj h
      have h0 : ((SegmentSum.rowScatterDims N E C wf).start j idx 0
          + ((SegmentSum.rowScatterDims N E C wf).window j 0 : Int)).toNat = (i 0).val := by rw [← hi]
      have h1 : ((SegmentSum.rowScatterDims N E C wf).start j idx 1
          + ((SegmentSum.rowScatterDims N E C wf).window j 1 : Int)).toNat = (i 1).val := by rw [← hi]
      have hnn := (hall 0).1
      rw [hs0, hw0] at h0 hnn
      rw [hs1, hw1] at h1
      constructor
      · omega
      · omega
    · rintro ⟨h0, h1⟩
      congr 1
      funext a
      refine Fin.ext ?_
      match a with
      | ⟨0, _⟩ =>
        show ((SegmentSum.rowScatterDims N E C wf).start j idx 0
          + ((SegmentSum.rowScatterDims N E C wf).window j 0 : Int)).toNat = (i 0).val
        rw [hs0, hw0, h0]
        omega
      | ⟨1, _⟩ =>
        show ((SegmentSum.rowScatterDims N E C wf).start j idx 1
          + ((SegmentSum.rowScatterDims N E C wf).window j 1 : Int)).toNat = (i 1).val
        rw [hs1, hw1, h1]
        omega
  · rename_i hall
    constructor
    · intro h
      exact absurd h (by simp)
    · rintro ⟨h0, h1⟩
      exfalso
      apply hall
      intro a
      match a with
      | ⟨0, _⟩ =>
        show 0 ≤ (SegmentSum.rowScatterDims N E C wf).start j idx 0
            + ((SegmentSum.rowScatterDims N E C wf).window j 0 : Int)
          ∧ (SegmentSum.rowScatterDims N E C wf).start j idx 0
            + ((SegmentSum.rowScatterDims N E C wf).window j 0 : Int) < (N : Int)
        rw [hs0, hw0, h0]
        omega
      | ⟨1, _⟩ =>
        show 0 ≤ (SegmentSum.rowScatterDims N E C wf).start j idx 1
            + ((SegmentSum.rowScatterDims N E C wf).window j 1 : Int)
          ∧ (SegmentSum.rowScatterDims N E C wf).start j idx 1
            + ((SegmentSum.rowScatterDims N E C wf).window j 1 : Int) < (C : Int)
        rw [hs1, hw1, h1]
        omega

/-- The row scatter-add read at (n, c): the table's entry plus the sum, over the update rows e whose start index
    read signed is n, of the update's entry (e, c).  An update row whose start index is outside [0, N) is in no
    such sum. -/
theorem rowScatter_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (SegmentSum.rowScatterDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => j 0) (fun e => ix2 e c) ?_ ?_ ?_ ?_ ?_
  · intro j hj
    have h := (rowScatter_resultIdx_iff wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _, (rowScatter_resultIdx_iff wf idx (ix2 e c) (ix2 n c)).mpr ⟨h, rfl⟩⟩
  · intro j hj
    have h := (rowScatter_resultIdx_iff wf idx j (ix2 n c)).mp (Finset.mem_filter.mp hj).2
    have hc : j 1 = c := Fin.ext h.2
    rw [← hc]
    exact (eq_ix2 j).symm
  · intro e _
    rfl
  · intro j hj
    have h := (rowScatter_resultIdx_iff wf idx j (ix2 n c)).mp (Finset.mem_filter.mp hj).2
    have hc : j 1 = c := Fin.ext h.2
    rw [← hc]
    exact congrArg upd (eq_ix2 j)

end Scatter

/-! ## The law -/

/-- The inclusion of the reals into the extended reals commutes with finite sums. -/
theorem coe_finset_sum {ι : Type} (S : Finset ι) (f : ι → ℝ) :
    ((∑ i ∈ S, f i : ℝ) : EReal) = ∑ i ∈ S, (f i : EReal) := by
  classical
  induction S using Finset.induction_on with
  | empty => simp
  | insert k S hk ih => rw [Finset.sum_insert hk, Finset.sum_insert hk, EReal.coe_add, ih]

/-- The law over the reals: Σ_q (a q + Σ_e b e q · c e) · d q = Σ_q a q · d q + Σ_e (Σ_q b e q · d q) · c e.
    The product distributes over the inner sum, and the two finite sums change places. -/
theorem real_dense_neighbourSum {ι κ : Type} (F : Finset ι) (Q : Finset κ) (a : κ → ℝ) (b : ι → κ → ℝ) (c : ι → ℝ)
    (d : κ → ℝ) :
    ∑ q ∈ Q, (a q + ∑ e ∈ F, b e q * c e) * d q = ∑ q ∈ Q, a q * d q + ∑ e ∈ F, (∑ q ∈ Q, b e q * d q) * c e := by
  simp only [add_mul, Finset.sum_add_distrib, Finset.sum_mul]
  congr 1
  rw [Finset.sum_comm]
  exact Finset.sum_congr rfl fun e _ => Finset.sum_congr rfl fun q _ => by ring

/-- The same law for extended reals that are all reals: every sum and product is then the image of the real one. -/
theorem ereal_dense_neighbourSum {ι κ : Type} (F : Finset ι) (Q : Finset κ) (a : κ → EReal) (b : ι → κ → EReal)
    (c : ι → EReal) (d : κ → EReal)
    (ha : ∀ q, ∃ r : ℝ, a q = (r : EReal)) (hb : ∀ e q, ∃ r : ℝ, b e q = (r : EReal))
    (hc : ∀ e, ∃ r : ℝ, c e = (r : EReal)) (hd : ∀ q, ∃ r : ℝ, d q = (r : EReal)) :
    ∑ q ∈ Q, (a q + ∑ e ∈ F, b e q * c e) * d q = ∑ q ∈ Q, a q * d q + ∑ e ∈ F, (∑ q ∈ Q, b e q * d q) * c e := by
  choose ar har using ha
  choose br hbr using hb
  choose cr hcr using hc
  choose dr hdr using hd
  simp only [har, hbr, hcr, hdr]
  simp only [← EReal.coe_mul, ← coe_finset_sum, ← EReal.coe_add]
  rw [real_dense_neighbourSum]

/-- THE LAW. Write nbr y for the weighted neighbour sum of a table y of node rows: row p of nbr y is the sum, over
    the edges e whose target (read signed, not clamped) is p, of row (source of e, read signed and clamped) of y
    times the weight w e.  Then (x + nbr x) · W = x · W + nbr (x · W) entry by entry, when the entries of x, of W
    and the weights are reals: entry (p, j) of the left side is Σ_q (x (p, q) + Σ_e x (s e, q) · w e) · W (q, j),
    the product distributes over the sums, and the sums over q and over e change places.  The weights enter as
    arrays constant along each row ("wK", "wH": both hold w e in row e), the accumulators as arrays of zeros. -/
theorem dense_neighbourSum {N E K H : ℕ} (hN : 0 < N)
    (wfgK : GatherDims.WF ⟨2, ![N, K]⟩ ⟨2, ![E, 1]⟩ ⟨2, ![E, K]⟩ [1] [0] [] [0] [] 1 ![1, K])
    (wfgH : GatherDims.WF ⟨2, ![N, H]⟩ ⟨2, ![E, 1]⟩ ⟨2, ![E, H]⟩ [1] [0] [] [0] [] 1 ![1, H])
    (wfsK : ScatterDims.WF ⟨2, ![N, K]⟩ ⟨2, ![E, 1]⟩ ⟨2, ![E, K]⟩ [1] [0] [0] 1)
    (wfsH : ScatterDims.WF ⟨2, ![N, H]⟩ ⟨2, ![E, 1]⟩ ⟨2, ![E, H]⟩ [1] [0] [0] 1)
    (x : FVec Ideal ⟨2, ![N, K]⟩ .f32) (W : FVec Ideal ⟨2, ![K, H]⟩ .f32) (srcI dstI : IVec ⟨2, ![E, 1]⟩ 32)
    (wK : FVec Ideal ⟨2, ![E, K]⟩ .f32) (wH : FVec Ideal ⟨2, ![E, H]⟩ .f32) (w : Fin E → EReal)
    (zK : FVec Ideal ⟨2, ![N, K]⟩ .f32) (zH : FVec Ideal ⟨2, ![N, H]⟩ .f32) (hzK : ∀ i, zK i = 0) (hzH : ∀ i, zH i = 0)
    (hwK : ∀ (e : Fin E) (c : Fin K), wK (ix2 e c) = w e) (hwH : ∀ (e : Fin E) (c : Fin H), wH (ix2 e c) = w e)
    (hx : ∀ i, ∃ r : ℝ, x i = (r : EReal)) (hW : ∀ i, ∃ r : ℝ, W i = (r : EReal)) (hw : ∀ e, ∃ r : ℝ, w e = (r : EReal)) :
    dense (addf x (Ideal.hostScatterAdd (SegmentSum.rowScatterDims N E K wfsK) zK dstI
        (mulf (Host.gather (SegmentSum.rowGatherDims N E K wfgK) x srcI) wK))) W
      = addf (dense x W) (Ideal.hostScatterAdd (SegmentSum.rowScatterDims N E H wfsH) zH dstI
          (mulf (Host.gather (SegmentSum.rowGatherDims N E H wfgH) (dense x W) srcI) wH)) := by
  funext i
  obtain ⟨p, j, rfl⟩ : ∃ p j, i = ix2 p j := ⟨i 0, i 1, eq_ix2 i⟩
  rw [dense_ix2, addf_apply, dense_ix2, rowScatter_apply]
  unfold denseAt
  simp only [addf_apply, rowScatter_apply, mulf_apply, SegmentSum.rowGather_apply hN, ix2_zero, ix2_one,
    hzK, hzH, hwK, hwH, zero_add, dense_ix2]
  unfold denseAt
  exact ereal_dense_neighbourSum
    (Finset.univ.filter (fun e : Fin E => (dstI (ix2 e (0 : Fin 1))).toInt = (p.val : Int))) Finset.univ
    (fun q => x (ix2 p q))
    (fun e q => x (ix2 (SegmentSum.clampRow N hN (srcI (ix2 e (0 : Fin 1)))) q))
    w (fun q => W (ix2 q j))
    (fun q => hx _) (fun e q => hx _) hw (fun q => hW _)

end Cert.Gin

end
-- ==== Proof.GinBridge.lean ====
/-
  The idealized kernel and the idealized reference compute one function.

  The reference takes the neighbour sum of the node features `x`, adds it to `x`, and multiplies by the first weight
  `W`.  The kernel multiplies `x` by `W` first, takes the neighbour sum of the product, and adds the two.  A dense
  product is linear in its left operand and the neighbour sum is a finite sum of rows scaled by edge weights, so when
  every entry of `x`, of `W` and of the edge weights is a real number the two agree:
      (x + Σ_e w_e · x_src(e)) · W  =  x · W + Σ_e w_e · (x · W)_src(e).
  (Finiteness is needed: distributing a product over a sum fails at infinities of opposite signs.)  From there on
  both programs apply the same small network, rectify, take the neighbour sum of the hidden array by the same host
  operations, and apply the second layer: equal inputs give equal results.
-/
import proofs.«171872_j42872363549081_2_alg».proof.Proof.RefLayers
import proofs.«171872_j42872363549081_2_alg».proof.Proof.KernelHost
import proofs.«171872_j42872363549081_2_alg».proof.Proof.NeighbourSum
import proofs.«171872_j42872363549081_2_alg».proof.Proof.LibHostMlp

set_option maxRecDepth 16384

noncomputable section

open scoped BigOperators

namespace Cert.Gin.Bridge

open Idealize.ShloMosaic Idealize.ShloMosaic.ValueIdx Cert.Gin
open Cert.KernelIdeal.HostValue (nsum srcCol dstCol srcRow dstRow)

variable (x0 : FVec Ideal ⟨2, ![100000, 128]⟩ .f32) (x1 : FVec Ideal ⟨1, ![1600000]⟩ .f32) (x2 : FVec Ideal ⟨2, ![128, 32]⟩ .f32)
  (x3 x4 x5 x6 x7 : FVec Ideal ⟨1, ![32]⟩ .f32) (x8 : FVec Ideal ⟨2, ![32, 32]⟩ .f32) (x9 : FVec Ideal ⟨1, ![32]⟩ .f32)
  (x10 : FVec Ideal ⟨2, ![32, 64]⟩ .f32) (x11 x12 x13 x14 x15 : FVec Ideal ⟨1, ![64]⟩ .f32) (x16 : FVec Ideal ⟨2, ![64, 64]⟩ .f32)
  (x17 : FVec Ideal ⟨1, ![64]⟩ .f32) (x18 : IVec ⟨2, ![2, 1600000]⟩ 32)

/-- The kernel's hidden array: the first layer's second half on the projected features and their neighbour sum. -/
def hiddenK : FVec Ideal ⟨2, ![100000, 32]⟩ .f32 :=
  post1 (dense x0 x2) (nsum (dense x0 x2) x1 x18) (vecOf x3) (vecOf x4) (vecOf x5) (vecOf x6) (vecOf x7) x8 (vecOf x9)

/-- The kernel's result: the second layer on the hidden array and its neighbour sum. -/
def outK : FVec Ideal ⟨2, ![100000, 64]⟩ .f32 :=
  layer2 (hiddenK x0 x1 x2 x3 x4 x5 x6 x7 x8 x9 x18) (nsum (hiddenK x0 x1 x2 x3 x4 x5 x6 x7 x8 x9 x18) x1 x18) x10
    (vecOf x11) (vecOf x12) (vecOf x13) (vecOf x14) (vecOf x15) x16 (vecOf x17)

/-- The reference's node features plus their neighbour sum, with the scatter and the gather at the general row
    records: the same host operations, spelt over the extents. -/
theorem ref_sum_eq :
    Cert.ReferenceIdeal.Read.val_main_v17 (F := Ideal) x0 x1 x18
      = addf x0 (Ideal.hostScatterAdd (SegmentSum.rowScatterDims 100000 1600000 128 Cert.ReferenceIdeal.scatter_S100000x128_S1600000x1_S1600000x128_1_0_0_1.wf)
          (Cert.ReferenceIdeal.Read.val_main_v14 (F := Ideal)) (dstCol x18)
          (mulf (Host.gather (SegmentSum.rowGatherDims 100000 1600000 128 Cert.ReferenceIdeal.gather_S100000x128_S1600000x1_S1600000x128_1_0_n_n_0_1_1128.wf) x0 (srcCol x18))
            (Cert.ReferenceIdeal.Read.val_main_v12 (F := Ideal) x1))) := rfl

/-- The kernel's neighbour sum of a node array, at the general row records. -/
theorem nsum_eq (H : FVec Ideal ⟨2, ![100000, 32]⟩ .f32) :
    nsum H x1 x18
      = Ideal.hostScatterAdd (SegmentSum.rowScatterDims 100000 1600000 32 Cert.KernelIdeal.scatter_S100000x32_S1600000x1_S1600000x32_1_0_0_1.wf)
          (broadcastInDim Cert.KernelIdeal.S100000x32 ![] Cert.KernelIdeal.Gen.bcast_S_S100000x32 (constant (F := Ideal) Cert.KernelIdeal.S_ .f32 0x00000000#32)) (dstCol x18)
          (mulf (Host.gather (SegmentSum.rowGatherDims 100000 1600000 32 Cert.KernelIdeal.gather_S100000x32_S1600000x1_S1600000x32_1_0_n_n_0_1_132.wf) H (srcCol x18))
            (broadcastInDim Cert.KernelIdeal.S1600000x32 ![0, 1] Cert.KernelIdeal.Gen.bcast_S1600000x1_S1600000x32_0_1
              (broadcastInDim Cert.KernelIdeal.S1600000x1 ![0] Cert.KernelIdeal.Gen.bcast_S1600000_S1600000x1_0 x1))) := rfl

/-- THE LAW at this program's extents: the reference's first product, of `x` plus its neighbour sum, is the kernel's
    product of `x` plus the neighbour sum of that product, when `x`, the weight and the edge weights are real. -/
theorem first_product_split
    (hx0 : ∀ i, ∃ r : ℝ, x0 i = (r : EReal)) (hx1 : ∀ i, ∃ r : ℝ, x1 i = (r : EReal)) (hx2 : ∀ i, ∃ r : ℝ, x2 i = (r : EReal)) :
    dense (Cert.ReferenceIdeal.Read.val_main_v17 (F := Ideal) x0 x1 x18) x2 = addf (dense x0 x2) (nsum (dense x0 x2) x1 x18) := by
  rw [ref_sum_eq, nsum_eq]
  refine dense_neighbourSum (N := 100000) (E := 1600000) (K := 128) (H := 32) (by norm_num) _ _ _ _
    x0 x2 (srcCol x18) (dstCol x18) _ _ (fun e => x1 (ix1 e)) _ _ ?_ ?_ ?_ ?_ hx0 hx2 (fun e => hx1 (ix1 e))
  · intro i
    unfold Cert.ReferenceIdeal.Read.val_main_v14 Cert.ReferenceIdeal.Read.val_main_cst
    rw [Cert.LibHostMlp.scalarBcast_apply, constant_apply, Ideal.ofBits_zero_f32]
  · intro i
    rw [Cert.LibHostMlp.scalarBcast_apply, constant_apply, Ideal.ofBits_zero_f32]
  · intro e c
    unfold Cert.ReferenceIdeal.Read.val_main_v12 Cert.ReferenceIdeal.Read.val_main_v11
    exact Cert.LibHostMlp.colBcast_apply _ _ x1 e c
  · intro e c
    exact Cert.LibHostMlp.colBcast_apply _ _ x1 e c

/-- The two hidden arrays are equal. -/
theorem hidden_eq
    (hx0 : ∀ i, ∃ r : ℝ, x0 i = (r : EReal)) (hx1 : ∀ i, ∃ r : ℝ, x1 i = (r : EReal)) (hx2 : ∀ i, ∃ r : ℝ, x2 i = (r : EReal)) :
    Cert.ReferenceIdeal.Read.val_main_v42 (F := Ideal) x0 x1 x2 x3 x4 x5 x6 x7 x8 x9 x18 = hiddenK x0 x1 x2 x3 x4 x5 x6 x7 x8 x9 x18 := by
  funext i
  obtain ⟨p, j, rfl⟩ : ∃ (p : Fin 100000) (j : Fin 32), i = ix2 p j := ⟨i 0, i 1, eq_ix2 i⟩
  rw [Cert.ReferenceIdeal.Layers.hidden_at, first_product_split x0 x1 x2 x18 hx0 hx1 hx2]
  rfl

/-- The reference's neighbour sum of its hidden array is the kernel's neighbour sum of the same array: the same host
    operations on the same edge list and weights. -/
theorem hidden_nsum_eq :
    Cert.ReferenceIdeal.Read.val_main_v59 (F := Ideal) x0 x1 x2 x3 x4 x5 x6 x7 x8 x9 x18
      = nsum (Cert.ReferenceIdeal.Read.val_main_v42 (F := Ideal) x0 x1 x2 x3 x4 x5 x6 x7 x8 x9 x18) x1 x18 := rfl

/-- The two results are equal. -/
theorem result_eq
    (hx0 : ∀ i, ∃ r : ℝ, x0 i = (r : EReal)) (hx1 : ∀ i, ∃ r : ℝ, x1 i = (r : EReal)) (hx2 : ∀ i, ∃ r : ℝ, x2 i = (r : EReal)) :
    Cert.ReferenceIdeal.Read.val_main_v84 (F := Ideal) x0 x1 x2 x3 x4 x5 x6 x7 x8 x9 x10 x11 x12 x13 x14 x15 x16 x17 x18
      = outK x0 x1 x2 x3 x4 x5 x6 x7 x8 x9 x10 x11 x12 x13 x14 x15 x16 x17 x18 := by
  rw [Cert.ReferenceIdeal.Layers.result_eq, hidden_nsum_eq, hidden_eq x0 x1 x2 x3 x4 x5 x6 x7 x8 x9 x18 hx0 hx1 hx2]
  rfl

end Cert.Gin.Bridge

end
-- ==== Proof.KernelOut.lean ====
/-
  The idealized kernel's result as a function of its arguments.

  Each region leaves in its output array one whole-array function of the arrays it finds; each array it finds is an
  argument as launched, an earlier region's output, the neighbour sum of one, or a parameter vector reshaped into a
  row.  Composing the three: the result buffer ends at the second layer of the hidden array, the hidden array being
  the first layer's second half on the projected features, the projected features the dense product of the node
  features with the first weight.
-/
import proofs.«171872_j42872363549081_2_alg».proof.Proof.KernelRun
import proofs.«171872_j42872363549081_2_alg».proof.Proof.KernelHost
import proofs.«171872_j42872363549081_2_alg».proof.Proof.RegionsProjPost
import proofs.«171872_j42872363549081_2_alg».proof.Proof.RegionMlp
import proofs.«171872_j42872363549081_2_alg».proof.Proof.GinBridge

set_option maxRecDepth 16384

noncomputable section

namespace Cert.KernelIdeal.OutValue

open Cert.KernelIdeal Cert.KernelIdeal.Gen Cert.KernelIdeal.HostValue
open Idealize.ShloMosaic Idealize.ShloMosaic.TcCoe Idealize.SL.Sem Cert.Gin Cert.Gin.Bridge

variable (m : (ℓ : Loc nD τ sig) → Buf (Elt Ideal) ℓ) (ρ : Dev nD → PrngReg) (c : Dev nD)

/-- The first region leaves the dense product of the node features with the first weight. -/
theorem projected : (dat0 (F := Ideal) (V1 m ρ) c).arrAt 2 cfg0.N = dense (m ((c.tc : Thread nD τ).loc main_arg0)) (m ((c.tc : Thread nD τ).loc main_arg2)) := by
  rw [Cert.KernelIdeal.RegionValue.region0_array (V1 m ρ) c, entry0_x, entry0_w]

set_option maxHeartbeats 4000000 in
/-- The second region leaves the hidden array. -/
theorem hidden : (dat1 (F := Ideal) (V3 m ρ) c).arrAt 9 cfg1.N = hiddenK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) := by
  rw [Cert.KernelIdeal.RegionValue.region1_array (V3 m ρ) c, entry1_xp, entry1_agg, entry1_ba, entry1_g, entry1_be, entry1_m,
    entry1_v, entry1_Wb, entry1_bb, projected,
    Cert.LibHostMlp.rowOf_shapeCast (m ((c.tc : Thread nD τ).loc main_arg3)) shapeCasts_S32_S1x32,
    Cert.LibHostMlp.rowOf_shapeCast (m ((c.tc : Thread nD τ).loc main_arg4)) shapeCasts_S32_S1x32,
    Cert.LibHostMlp.rowOf_shapeCast (m ((c.tc : Thread nD τ).loc main_arg5)) shapeCasts_S32_S1x32,
    Cert.LibHostMlp.rowOf_shapeCast (m ((c.tc : Thread nD τ).loc main_arg6)) shapeCasts_S32_S1x32,
    Cert.LibHostMlp.rowOf_shapeCast (m ((c.tc : Thread nD τ).loc main_arg7)) shapeCasts_S32_S1x32,
    Cert.LibHostMlp.rowOf_shapeCast (m ((c.tc : Thread nD τ).loc main_arg9)) shapeCasts_S32_S1x32]
  rfl

set_option maxHeartbeats 4000000 in
/-- The third region leaves the result. -/
theorem result : (dat2 (F := Ideal) (V5 m ρ) c).arrAt 10 cfg2.N = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [Cert.KernelIdeal.RegionValue.region2_array (V5 m ρ) c, entry2_feat, entry2_agg, entry2_Wa, entry2_ba, entry2_g, entry2_be,
    entry2_m, entry2_v, entry2_Wb, entry2_bb, hidden,
    Cert.LibHostMlp.rowOf_shapeCast (m ((c.tc : Thread nD τ).loc main_arg11)) shapeCasts_S64_S1x64,
    Cert.LibHostMlp.rowOf_shapeCast (m ((c.tc : Thread nD τ).loc main_arg12)) shapeCasts_S64_S1x64,
    Cert.LibHostMlp.rowOf_shapeCast (m ((c.tc : Thread nD τ).loc main_arg13)) shapeCasts_S64_S1x64,
    Cert.LibHostMlp.rowOf_shapeCast (m ((c.tc : Thread nD τ).loc main_arg14)) shapeCasts_S64_S1x64,
    Cert.LibHostMlp.rowOf_shapeCast (m ((c.tc : Thread nD τ).loc main_arg15)) shapeCasts_S64_S1x64,
    Cert.LibHostMlp.rowOf_shapeCast (m ((c.tc : Thread nD τ).loc main_arg17)) shapeCasts_S64_S1x64]
  rfl

/-- The last boundary's contents at the result buffer. -/
theorem kernel_out : W6 (F := Ideal) m ρ c (Proc.devRef .tc main_v44) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (Cert.KernelIdeal.Run.out_eq m ρ c).trans (result m ρ c)

end Cert.KernelIdeal.OutValue

end
-- ==== Proof.FiniteInputs.lean ====
/-
  From the certificate's precondition to the finiteness of the first three argument arrays.

  The precondition tests, for each argument array, that the absolute value of every entry is strictly below +∞, takes
  the conjunction over all entries of the array, and then the conjunction of the nineteen results, nested to the left.
  An extended real whose absolute value max x (-x) is strictly below ⊤ is neither ⊤ nor ⊥, hence the coercion of a real
  number.  Read at the first three arrays this says that each of their entries is a real number.
-/
import proofs.«171872_j42872363549081_2_alg».proof.Pre_finite_inputs
import Idealize.ShloMosaic.PureOps.Ideal
import Idealize.ShloMosaic.Lib.ValueIdx
import Idealize.ShloMosaic.Lib.ReduceAll

noncomputable section

namespace Cert.Gin.Finite

open Idealize.ShloMosaic Idealize.ShloMosaic.ValueIdx

/-- The word 0x7F800000 read as a 32-bit float is +∞. -/
theorem inf_word : Ideal.ofBits .f32 0x7F800000#32 = (⊤ : EReal) := by
  simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- One conjunct of the precondition: if the conjunction over all entries of "|x| < +∞" is 1, every entry of x is a
    real number. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] bc (constant (F := Ideal) Cert.Pre_finite_inputs.S_ .f32 0x7F800000#32)))
        (constantI Cert.Pre_finite_inputs.S_ 1 1#1) hr hu ix0 = 1#1) :
    ∀ i, ∃ r : ℝ, x i = (r : EReal) := fun i =>
  real_of_abs_lt (x i) (Host.reduce_andi_all _ _ hr hu ix0 e i)

/-- Under the precondition every entry of the first three argument arrays is a real number. -/
theorem real_of_pre [Cert.Pre_finite_inputs.Facts]
    (x0 : FVec Ideal Cert.Pre_finite_inputs.S100000x128 .f32) (x1 : FVec Ideal Cert.Pre_finite_inputs.S1600000 .f32)
    (x2 : FVec Ideal Cert.Pre_finite_inputs.S128x32 .f32)
    (x3 x4 x5 x6 x7 : FVec Ideal Cert.Pre_finite_inputs.S32 .f32) (x8 : FVec Ideal Cert.Pre_finite_inputs.S32x32 .f32)
    (x9 : FVec Ideal Cert.Pre_finite_inputs.S32 .f32)
    (x10 : FVec Ideal Cert.Pre_finite_inputs.S32x64 .f32) (x11 x12 x13 x14 x15 : FVec Ideal Cert.Pre_finite_inputs.S64 .f32)
    (x16 : FVec Ideal Cert.Pre_finite_inputs.S64x64 .f32)
    (x17 : FVec Ideal Cert.Pre_finite_inputs.S64 .f32) (x18 : IVec Cert.Pre_finite_inputs.S2x1600000 32)
    (h : Cert.Pre_finite_inputs.fn (F := Ideal) x0 x1 x2 x3 x4 x5 x6 x7 x8 x9 x10 x11 x12 x13 x14 x15 x16 x17 x18
      = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  -- nineteen conjuncts nested to the left: dropping the right conjunct fifteen times leaves (c0 ∧ c1) ∧ c2
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  obtain ⟨h8, h12⟩ := IntOp.andi_eq_one.1 h0
  obtain ⟨h3, h7⟩ := IntOp.andi_eq_one.1 h8
  exact ⟨real_of_all x0 _ _ _ h3, real_of_all x1 _ _ _ h7, real_of_all x2 _ _ _ h12⟩

end Cert.Gin.Finite

end
-- ==== Proof.lean ====
/-
  The certificate of the graph-isomorphism kernel against its reference.

  The kernel computes two message-passing layers in three pipelined regions with host-side neighbour sums between
  them; the reference computes the same two layers with whole-array operations.  They differ in one place: the kernel
  multiplies the node features by the first weight before taking the neighbour sum, the reference after.  Over the
  extended reals the two orders agree when the node features, the first weight and the edge weights are real numbers,
  which the precondition gives; everything else is the same arithmetic, entry by entry.

  The three frame claims are the generated frames (the reference's is its generated run with the result dropped); the
  idealization rewrote nothing, so its claim is trivial; the algebraic claim puts the kernel's run with its result
  named beside the reference's generated run and joins the two results by `Cert.Gin.Bridge.result_eq`.
-/
import proofs.«171872_j42872363549081_2_alg».proof.Defs
import proofs.«171872_j42872363549081_2_alg».proof.Proof.Gen.Kernel
import proofs.«171872_j42872363549081_2_alg».proof.Proof.Gen.Kernel.Skeleton
import proofs.«171872_j42872363549081_2_alg».proof.Proof.Gen.Kernel.Launch
import proofs.«171872_j42872363549081_2_alg».proof.Proof.Gen.Kernel.Points
import proofs.«171872_j42872363549081_2_alg».proof.Proof.Gen.Kernel.Frame
import proofs.«171872_j42872363549081_2_alg».proof.Proof.Gen.KernelIdeal
import proofs.«171872_j42872363549081_2_alg».proof.Proof.Gen.KernelIdeal.Skeleton
import proofs.«171872_j42872363549081_2_alg».proof.Proof.Gen.KernelIdeal.Launch
import proofs.«171872_j42872363549081_2_alg».proof.Proof.Gen.KernelIdeal.Points
import proofs.«171872_j42872363549081_2_alg».proof.Proof.Gen.KernelIdeal.Frame
import proofs.«171872_j42872363549081_2_alg».proof.Proof.Gen.ReferenceIdeal
import proofs.«171872_j42872363549081_2_alg».proof.Proof.Gen.ReferenceIdeal.Run
import proofs.«171872_j42872363549081_2_alg».proof.Proof.Gen.ReferenceIdeal.Read
import proofs.«171872_j42872363549081_2_alg».proof.Proof.Gen.Pre_finite_inputs
import proofs.«171872_j42872363549081_2_alg».proof.Proof.KernelOut
import proofs.«171872_j42872363549081_2_alg».proof.Proof.GinBridge
import proofs.«171872_j42872363549081_2_alg».proof.Proof.FiniteInputs
import Idealize.ShloMosaic.Adequacy
import Idealize.ShloMosaic.Init

set_option maxRecDepth 16384

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 2000000 in
/-- The reference's result term, from a memory agreeing with the kernel's on the arguments, is the kernel's result. -/
theorem ref_side
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) = fun _ => 1#1)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (h18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))) :
    Cert.ReferenceIdeal.Value.res_main_v84 (F := Ideal) m' c = Cert.Gin.Bridge.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)) := by
  refine (Cert.ReferenceIdeal.Read.val_main_v84_eq (F := Ideal) m' c).trans ?_
  rw [h0, h1, h2, h3, h4, h5, h6, h7, h8, h9, h10, h11, h12, h13, h14, h15, h16, h17, h18]
  obtain ⟨r0, r1, r2⟩ := Cert.Gin.Finite.real_of_pre _ _ _ _ _ _ _ _ _ _ _ _ _ _ _ _ _ _ _ hpre
  exact Cert.Gin.Bridge.result_eq _ _ _ _ _ _ _ _ _ _ _ _ _ _ _ _ _ _ _ r0 r1 r2

/-- From memories agreeing on the arguments both idealized programs run and end with equal results. -/
theorem algebraic : Cert.algebraic_KernelIdeal_ReferenceIdeal := by
  intro m ρ m' ρ' hpre hagree
  refine ⟨fun c => Cert.Gin.Bridge.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.OutValue.kernel_out m ρ c), (h c).2⟩)
      (Cert.KernelIdeal.Run.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    exact ref_side m m' c (hpre c) h0 h1 h2 h3 h4 h5 h6 h7 h8 h9 h10 h11 h12 h13 h14 h15 h16 h17 h18

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
